-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S2x2097152 : Shape := ⟨2, ![2, 2097152]⟩
abbrev S524288 : Shape := ⟨1, ![524288]⟩
abbrev S8192x1 : Shape := ⟨2, ![8192, 1]⟩
abbrev S8192 : Shape := ⟨1, ![8192]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S524288x64 .f32) (main_arg1 : IVec S2x2097152 32) (main_arg2 : IVec S524288 32) (main_arg3 : FVec F S8192x1 .f32) (main_arg4 : IVec S8192 32) (main_arg5 : FVec F S64x128 .f32) (main_arg6 : FVec F S64x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S8192x1 .f32 := Host.absf main_arg3
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_arg11 main_v13 main_v16
-- ==== Kernel.lean ====
abbrev S524288x64 : Shape := ⟨2, ![524288, 64]⟩
abbrev S2x2097152 : Shape := ⟨2, ![2, 2097152]⟩
abbrev S524288 : Shape := ⟨1, ![524288]⟩
abbrev S8192x1 : Shape := ⟨2, ![8192, 1]⟩
abbrev S8192 : Shape := ⟨1, ![8192]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S2097152x64 : Shape := ⟨2, ![2097152, 64]⟩
abbrev S524288x1 : Shape := ⟨2, ![524288, 1]⟩
abbrev S524288x128 : Shape := ⟨2, ![524288, 128]⟩
abbrev S4096x64 : Shape := ⟨2, ![4096, 64]⟩
abbrev S4096x128 : Shape := ⟨2, ![4096, 128]⟩
abbrev S1x128 : Shape := ⟨2, ![1, 128]⟩
abbrev S8192x128 : Shape := ⟨2, ![8192, 128]⟩
abbrev S1x1 : Shape := ⟨2, ![1, 1]⟩
abbrev S64x1 : Shape := ⟨2, ![64, 1]⟩

abbrev nBuf : Space → Nat
  | .hbm => 61
  | .vmem => 15
  | .smem => 0
  | _ => 0

abbrev bufTy : (tb : Table) → Fin (tcTables nBuf tb) → BufTy
  | .hbm, ⟨0, _⟩ => ⟨S524288x64, .f32⟩
  | .hbm, ⟨1, _⟩ => ⟨S2x2097152, .i32⟩
  | .hbm, ⟨2, _⟩ => ⟨S524288, .i32⟩
  | .hbm, ⟨3, _⟩ => ⟨S8192x1, .f32⟩
  | .hbm, ⟨4, _⟩ => ⟨S8192, .i32⟩
  | .hbm, ⟨5, _⟩ => ⟨S64x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x2097152, .i32⟩
  | .hbm, ⟨13, _⟩ => ⟨S2097152, .i32⟩
  | .hbm, ⟨14, _⟩ => ⟨S1x2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S2097152x64, .f32⟩
  | .hbm, ⟨25, _⟩ => ⟨S_, .f32⟩
  | .hbm, ⟨26, _⟩ => ⟨S524288x64, .f32⟩
  | .hbm, ⟨27, _⟩ => ⟨S2097152x1, .i32⟩
  | .hbm, ⟨28, _⟩ => ⟨S524288x64, .f32⟩
  | .hbm, ⟨29, _⟩ => ⟨S_, .f32⟩
  | .hbm, ⟨30, _⟩ => ⟨S2097152, .f32⟩
  | .hbm, ⟨31, _⟩ => ⟨S_, .f32⟩
  | .hbm, ⟨32, _⟩ => ⟨S524288, .f32⟩
  | .hbm, ⟨33, _⟩ => ⟨S2097152x1, .i32⟩
  | .hbm, ⟨34, _⟩ => ⟨S524288, .f32⟩
  | .hbm, ⟨35, _⟩ => ⟨S_, .f32⟩
  | .hbm, ⟨36, _⟩ => ⟨S524288, .f32⟩
  | .hbm, ⟨37, _⟩ => ⟨S524288, .f32⟩
  | .hbm, ⟨38, _⟩ => ⟨S524288x1, .f32⟩
  | .hbm, ⟨39, _⟩ => ⟨S524288x64, .f32⟩
  | .hbm, ⟨40, _⟩ => ⟨S524288x64, .f32⟩
  | .hbm, ⟨41, _⟩ => ⟨S64x128, .bf16⟩
  | .hbm, ⟨42, _⟩ => ⟨S64x128, .bf16⟩
  | .hbm, ⟨43, _⟩ => ⟨S524288x128, .f32⟩
  | .hbm, ⟨44, _⟩ => ⟨S_, .f32⟩
  | .hbm, ⟨45, _⟩ => ⟨S8192x128, .f32⟩
  | .hbm, ⟨46, _⟩ => ⟨S524288x1, .i32⟩
  | .hbm, ⟨47, _⟩ => ⟨S8192x128, .f32⟩
  | .hbm, ⟨48, _⟩ => ⟨S128x128, .bf16⟩
  | .hbm, ⟨49, _⟩ => ⟨S128x1, .bf16⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S64x1, .f32⟩
  | .hbm, ⟨54, _⟩ => ⟨S8192x1, .i32⟩
  | .hbm, ⟨55, _⟩ => ⟨S64x1, .f32⟩
  | .hbm, ⟨56, _⟩ => ⟨S_, .f32⟩
  | .hbm, ⟨57, _⟩ => ⟨S64x1, .f32⟩
  | .hbm, ⟨58, _⟩ => ⟨S8192x1, .i32⟩
  | .hbm, ⟨59, _⟩ => ⟨S64x1, .f32⟩
  | .hbm, ⟨60, _⟩ => ⟨S64x1, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x128, .bf16⟩
  | .local _ .vmem, ⟨5, _⟩ => ⟨S64x128, .bf16⟩
  | .local _ .vmem, ⟨6, _⟩ => ⟨S128, .f32⟩
  | .local _ .vmem, ⟨7, _⟩ => ⟨S4096x128, .f32⟩
  | .local _ .vmem, ⟨8, _⟩ => ⟨S4096x128, .f32⟩
  | .local _ .vmem, ⟨9, _⟩ => ⟨S8192x128, .f32⟩
  | .local _ .vmem, ⟨10, _⟩ => ⟨S128x128, .bf16⟩
  | .local _ .vmem, ⟨11, _⟩ => ⟨S128, .f32⟩
  | .local _ .vmem, ⟨12, _⟩ => ⟨S128x1, .bf16⟩
  | .local _ .vmem, ⟨13, _⟩ => ⟨S1, .f32⟩
  | .local _ .vmem, ⟨14, _⟩ => ⟨S8192x1, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S524288x64 : S_.BroadcastsInDim S524288x64 (![] : Fin 0 → Fin S524288x64.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  bcast_S_S8192x128 : S_.BroadcastsInDim S8192x128 (![] : Fin 0 → Fin S8192x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  bcast_S_S64x1 : S_.BroadcastsInDim S64x1 (![] : Fin 0 → Fin S64x1.rank)
  bcast_S8192_S8192x1_0 : S8192.BroadcastsInDim S8192x1 (![0] : Fin 1 → Fin S8192x1.rank)
  gather_S524288x64_S2097152x1_S2097152x64_1_0_n_n_0_1_164_wf : GatherDims.WF S524288x64 S2097152x1 S2097152x64 [1] [0] [] [0] [] 1 ![1, 64]
  scatter_S524288x64_S2097152x1_S2097152x64_1_0_0_1_wf : ScatterDims.WF S524288x64 S2097152x1 S2097152x64 [1] [0] [0] 1
  scatter_S524288_S2097152x1_S2097152_n_0_0_1_wf : ScatterDims.WF S524288 S2097152x1 S2097152 [] [0] [0] 1
  dot_S4096x64_S64x128_S4096x128_1_0_0_1_n_n_wf : DotDims.WF S4096x64 S64x128 S4096x128 [1] [0] [0] [1] [] []
  scatter_S8192x128_S524288x1_S524288x128_1_0_0_1_wf : ScatterDims.WF S8192x128 S524288x1 S524288x128 [1] [0] [0] 1
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  scatter_S64x1_S8192x1_S8192x1_1_0_0_1_wf : ScatterDims.WF S64x1 S8192x1 S8192x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S524288x128.size a
  hwx0_5 : ∀ i : grid0.Coords, EltTy.bits .f32 = 32 ∨ (Rect.block (s := S524288x128) S4096x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .bf16 = 32 ∨ (Rect.block (s := S128x1) S128x1.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x1.size a ≤ S8192x1.size a
  hwx1_5 : ∀ i : grid1.Coords, EltTy.bits .f32 = 32 ∨ (Rect.block (s := S8192x1) S8192x1.size (cc1_transform_5 i) (hinb1_5 i)).WholeWords (EltTy.packing .f32)

variable [Facts₀]

def gather_S524288x64_S2097152x1_S2097152x64_1_0_n_n_0_1_164 : GatherDims S524288x64 S2097152x1 S2097152x64 where
  offsetDims := [1]
  collapsedSliceDims := [0]
  operandBatchingDims := []
  startIndicesBatchingDims := []
  startIndexMap := [0]
  indexVectorDim := 1
  sliceSizes := ![1, 64]
  wf := gather_S524288x64_S2097152x1_S2097152x64_1_0_n_n_0_1_164_wf
def scatter_S524288x64_S2097152x1_S2097152x64_1_0_0_1 : ScatterDims S524288x64 S2097152x1 S2097152x64 where
  updateWindowDims := [1]
  insertedWindowDims := [0]
  scatterDimsToOperandDims := [0]
  indexVectorDim := 1
  wf := scatter_S524288x64_S2097152x1_S2097152x64_1_0_0_1_wf
def scatter_S524288_S2097152x1_S2097152_n_0_0_1 : ScatterDims S524288 S2097152x1 S2097152 where
  updateWindowDims := []
  insertedWindowDims := [0]
  scatterDimsToOperandDims := [0]
  indexVectorDim := 1
  wf := scatter_S524288_S2097152x1_S2097152_n_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def scatter_S64x1_S8192x1_S8192x1_1_0_0_1 : ScatterDims S64x1 S8192x1 S8192x1 where
  updateWindowDims := [1]
  insertedWindowDims := [0]
  scatterDimsToOperandDims := [0]
  indexVectorDim := 1
  wf := scatter_S64x1_S8192x1_S8192x1_1_0_0_1_wf

abbrev win0_0 : Pipeline.Window sig grid0 :=
  Pipeline.Window.ofSpec (Memref.whole main_v22) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S8192x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S524288x64 : Shape := ⟨2, ![524288, 64]⟩
abbrev S2x2097152 : Shape := ⟨2, ![2, 2097152]⟩
abbrev S524288 : Shape := ⟨1, ![524288]⟩
abbrev S8192x1 : Shape := ⟨2, ![8192, 1]⟩
abbrev S8192 : Shape := ⟨1, ![8192]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x2097152 : Shape := ⟨2, ![1, 2097152]⟩
abbrev S2097152 : Shape := ⟨1, ![2097152]⟩
abbrev S_ : Shape := ⟨0, ![]⟩
abbrev S2097152x1 : Shape := ⟨2, ![2097152, 1]⟩
abbrev S2097152x64 : Shape := ⟨2, ![2097152, 64]⟩
abbrev S524288x1 : Shape := ⟨2, ![524288, 1]⟩
abbrev S524288x128 : Shape := ⟨2, ![524288, 128]⟩
abbrev S1x128 : Shape := ⟨2, ![1, 128]⟩
abbrev S8192x128 : Shape := ⟨2, ![8192, 128]⟩
abbrev S1x1 : Shape := ⟨2, ![1, 1]⟩
abbrev S64x1 : Shape := ⟨2, ![64, 1]⟩

abbrev nBuf : Space → Nat
  | .hbm => 80
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S2x2097152, .i32⟩
  | .hbm, ⟨2, _⟩ => ⟨S524288, .i32⟩
  | .hbm, ⟨3, _⟩ => ⟨S8192x1, .f32⟩
  | .hbm, ⟨4, _⟩ => ⟨S8192, .i32⟩
  | .hbm, ⟨5, _⟩ => ⟨S64x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x2097152, .i32⟩
  | .hbm, ⟨13, _⟩ => ⟨S2097152, .i32⟩
  | .hbm, ⟨14, _⟩ => ⟨S1x2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S2097152x64, .f32⟩
  | .hbm, ⟨25, _⟩ => ⟨S_, .f32⟩
  | .hbm, ⟨26, _⟩ => ⟨S524288x64, .f32⟩
  | .hbm, ⟨27, _⟩ => ⟨S2097152x1, .i32⟩
  | .hbm, ⟨28, _⟩ => ⟨S524288x64, .f32⟩
  | .hbm, ⟨29, _⟩ => ⟨S_, .f32⟩
  | .hbm, ⟨30, _⟩ => ⟨S2097152, .f32⟩
  | .hbm, ⟨31, _⟩ => ⟨S_, .f32⟩
  | .hbm, ⟨32, _⟩ => ⟨S524288, .f32⟩
  | .hbm, ⟨33, _⟩ => ⟨S2097152x1, .i32⟩
  | .hbm, ⟨34, _⟩ => ⟨S524288, .f32⟩
  | .hbm, ⟨35, _⟩ => ⟨S_, .f32⟩
  | .hbm, ⟨36, _⟩ => ⟨S524288, .f32⟩
  | .hbm, ⟨37, _⟩ => ⟨S524288, .f32⟩
  | .hbm, ⟨38, _⟩ => ⟨S524288x1, .f32⟩
  | .hbm, ⟨39, _⟩ => ⟨S524288x64, .f32⟩
  | .hbm, ⟨40, _⟩ => ⟨S524288x64, .f32⟩
  | .hbm, ⟨41, _⟩ => ⟨S524288x128, .f32⟩
  | .hbm, ⟨42, _⟩ => ⟨S524288x128, .f32⟩
  | .hbm, ⟨43, _⟩ => ⟨S524288x128, .f32⟩
  | .hbm, ⟨44, _⟩ => ⟨S1x128, .f32⟩
  | .hbm, ⟨45, _⟩ => ⟨S524288x128, .f32⟩
  | .hbm, ⟨46, _⟩ => ⟨S524288x128, .f32⟩
  | .hbm, ⟨47, _⟩ => ⟨S_, .f32⟩
  | .hbm, ⟨48, _⟩ => ⟨S524288x128, .f32⟩
  | .hbm, ⟨49, _⟩ => ⟨S524288x128, .f32⟩
  | .hbm, ⟨50, _⟩ => ⟨S_, .f32⟩
  | .hbm, ⟨51, _⟩ => ⟨S8192x128, .f32⟩
  | .hbm, ⟨52, _⟩ => ⟨S524288x1, .i32⟩
  | .hbm, ⟨53, _⟩ => ⟨S8192x128, .f32⟩
  | .hbm, ⟨54, _⟩ => ⟨S8192x128, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S_, .f32⟩
  | .hbm, ⟨60, _⟩ => ⟨S8192x128, .f32⟩
  | .hbm, ⟨61, _⟩ => ⟨S8192x128, .i1⟩
  | .hbm, ⟨62, _⟩ => ⟨S_, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x1, .f32⟩
  | .hbm, ⟨67, _⟩ => ⟨S1x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S64x1, .f32⟩
  | .hbm, ⟨73, _⟩ => ⟨S8192x1, .i32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S8192x1, .i32⟩
  | .hbm, ⟨78, _⟩ => ⟨S64x1, .f32⟩
  | .hbm, ⟨79, _⟩ => ⟨S64x1, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S524288x64 : S_.BroadcastsInDim S524288x64 (![] : Fin 0 → Fin S524288x64.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S_S8192x128 : S_.BroadcastsInDim S8192x128 (![] : Fin 0 → Fin S8192x128.rank)
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S64x1 : S_.BroadcastsInDim S64x1 (![] : Fin 0 → Fin S64x1.rank)
  bcast_S8192_S8192x1_0 : S8192.BroadcastsInDim S8192x1 (![0] : Fin 1 → Fin S8192x1.rank)
  gather_S524288x64_S2097152x1_S2097152x64_1_0_n_n_0_1_164_wf : GatherDims.WF S524288x64 S2097152x1 S2097152x64 [1] [0] [] [0] [] 1 ![1, 64]
  scatter_S524288x64_S2097152x1_S2097152x64_1_0_0_1_wf : ScatterDims.WF S524288x64 S2097152x1 S2097152x64 [1] [0] [0] 1
  scatter_S524288_S2097152x1_S2097152_n_0_0_1_wf : ScatterDims.WF S524288 S2097152x1 S2097152 [] [0] [0] 1
  dot_S524288x64_S64x128_S524288x128_1_0_0_1_n_n_wf : DotDims.WF S524288x64 S64x128 S524288x128 [1] [0] [0] [1] [] []
  scatter_S8192x128_S524288x1_S524288x128_1_0_0_1_wf : ScatterDims.WF S8192x128 S524288x1 S524288x128 [1] [0] [0] 1
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  scatter_S64x1_S8192x1_S8192x1_1_0_0_1_wf : ScatterDims.WF S64x1 S8192x1 S8192x1 [1] [0] [0] 1

variable [Facts₀]

def gather_S524288x64_S2097152x1_S2097152x64_1_0_n_n_0_1_164 : GatherDims S524288x64 S2097152x1 S2097152x64 where
  offsetDims := [1]
  collapsedSliceDims := [0]
  operandBatchingDims := []
  startIndicesBatchingDims := []
  startIndexMap := [0]
  indexVectorDim := 1
  sliceSizes := ![1, 64]
  wf := gather_S524288x64_S2097152x1_S2097152x64_1_0_n_n_0_1_164_wf
def scatter_S524288x64_S2097152x1_S2097152x64_1_0_0_1 : ScatterDims S524288x64 S2097152x1 S2097152x64 where
  updateWindowDims := [1]
  insertedWindowDims := [0]
  scatterDimsToOperandDims := [0]
  indexVectorDim := 1
  wf := scatter_S524288x64_S2097152x1_S2097152x64_1_0_0_1_wf
def scatter_S524288_S2097152x1_S2097152_n_0_0_1 : ScatterDims S524288 S2097152x1 S2097152 where
  updateWindowDims := []
  insertedWindowDims := [0]
  scatterDimsToOperandDims := [0]
  indexVectorDim := 1
  wf := scatter_S524288_S2097152x1_S2097152_n_0_0_1_wf
def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def scatter_S64x1_S8192x1_S8192x1_1_0_0_1 : ScatterDims S64x1 S8192x1 S8192x1 where
  updateWindowDims := [1]
  insertedWindowDims := [0]
  scatterDimsToOperandDims := [0]
  indexVectorDim := 1
  wf := scatter_S64x1_S8192x1_S8192x1_1_0_0_1_wf

class Facts : Prop extends Facts₀ where

variable [Facts]
-- ==== Proof.KernelRun.lean ====
/-
  The idealized kernel's run with its result named: every weakly fair execution of @main terminates with the result
  buffer at the last segment boundary's contents (the fold of the host stretches and the two regions' write-backs from the
  launch memory) and the argument arrays as launched. The segments, their proof data and the boundary contents are the
  generated frame's; only what is read off the final state is more.
-/
import proofs.«113190_j72541997629472_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read at the last boundary's contents. -/
theorem run_result : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v39 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Hand

end
-- ==== Proof.Stages.lean ====
/-
  The shared stages of the two programs, as functions of arrays on the extended reals.

  Both programs compute, in this order:
    * the mean of the neighbours' feature rows: rows of x gathered at the edges' sources (a negative source number
      wrapped once), summed into the edges' targets, divided by max(in-degree, 1)                     (meanNeighbours);
    * a dense layer with a rectifier, max(agg · W_l + x · W_r + b, 0);
    * the sum of the nodes' rows into their subgraphs                                                  (poolRows);
    * a two-layer head with a leaky rectifier, leaky(g · W1 + b1) · W2 + b2;
    * the weighted sum of the subgraphs' scores into their graphs over the sum of the weights          (weightedMean).
  The first, third and fifth are the same host operations in both programs and are carried as the three functions
  below, never opened. The second and fourth are what differs in spelling (a blocked matrix unit against whole host
  products; `t > 0` against `t ≥ 0` in the leaky rectifier) and are stated index by index as `denseRelu` and `head`.
-/
import proofs.«113190_j72541997629472_1_alg».proof.Proof.Gen.KernelIdeal
import Idealize.ShloMosaic.PureOps.Ideal
import Idealize.ShloMosaic.Lib.ValueIdx

noncomputable section

namespace Cert.Sage

open Idealize.ShloMosaic Idealize.ShloMosaic.ValueIdx Cert.KernelIdeal Cert.KernelIdeal.Facts₀
open scoped BigOperators

/-- Mean aggregation of neighbour features: `x[src]` summed into `dst`, over `max(deg, 1)`. -/
def meanNeighbours (x : FVec Ideal S524288x64 .f32) (ei : IVec S2x2097152 32) : FVec Ideal S524288x64 .f32 :=
  have v0 : IVec S1x2097152 32 := extractStridedSlice S1x2097152 ![0, 0] ei slices_S2x2097152_S1x2097152_0_0
  have v1 : IVec S2097152 32 := fun i => shapeCast S2097152 v0 shapeCasts_S1x2097152_S2097152 i
  have v2 : IVec S1x2097152 32 := extractStridedSlice S1x2097152 ![1, 0] ei slices_S2x2097152_S1x2097152_1_0
  have v3 : IVec S2097152 32 := fun i => shapeCast S2097152 v2 shapeCasts_S1x2097152_S2097152 i
  have c : IVec S_ 32 := constantI S_ 32 0#32
  have v4 : IVec S2097152 32 := broadcastInDim S2097152 ![] bcast_S_S2097152 c
  have v5 : IVec S2097152 1 := cmpi .slt v1 v4
  have c_0 : IVec S_ 32 := constantI S_ 32 524288#32
  have v6 : IVec S2097152 32 := broadcastInDim S2097152 ![] bcast_S_S2097152 c_0
  have v7 : IVec S2097152 32 := addi v1 v6
  have v8 : IVec S2097152 32 := select v5 v7 v1
  have v9 : IVec S2097152x1 32 := broadcastInDim S2097152x1 ![0] bcast_S2097152_S2097152x1_0 v8
  have v10 : FVec Ideal S2097152x64 .f32 := Host.gather gather_S524288x64_S2097152x1_S2097152x64_1_0_n_n_0_1_164 x v9
  have cst : FVec Ideal S_ .f32 := constant (F := Ideal) S_ .f32 0x00000000#32
  have v11 : FVec Ideal S524288x64 .f32 := broadcastInDim S524288x64 ![] bcast_S_S524288x64 cst
  have v12 : IVec S2097152x1 32 := broadcastInDim S2097152x1 ![0] bcast_S2097152_S2097152x1_0 v3
  have v13 : FVec Ideal S524288x64 .f32 := Host.scatterAdd scatter_S524288x64_S2097152x1_S2097152x64_1_0_0_1 v11 v12 v10
  have cst_1 : FVec Ideal S_ .f32 := constant (F := Ideal) S_ .f32 0x3F800000#32
  have v14 : FVec Ideal S2097152 .f32 := broadcastInDim S2097152 ![] bcast_S_S2097152 cst_1
  have cst_2 : FVec Ideal S_ .f32 := constant (F := Ideal) S_ .f32 0x00000000#32
  have v15 : FVec Ideal S524288 .f32 := broadcastInDim S524288 ![] bcast_S_S524288 cst_2
  have v16 : IVec S2097152x1 32 := broadcastInDim S2097152x1 ![0] bcast_S2097152_S2097152x1_0 v3
  have v17 : FVec Ideal S524288 .f32 := Host.scatterAdd scatter_S524288_S2097152x1_S2097152_n_0_0_1 v15 v16 v14
  have cst_3 : FVec Ideal S_ .f32 := constant (F := Ideal) S_ .f32 0x3F800000#32
  have v18 : FVec Ideal S524288 .f32 := broadcastInDim S524288 ![] bcast_S_S524288 cst_3
  have v19 : FVec Ideal S524288 .f32 := maximumf v17 v18
  have v20 : FVec Ideal S524288x1 .f32 := broadcastInDim S524288x1 ![0] bcast_S524288_S524288x1_0 v19
  have v21 : FVec Ideal S524288x64 .f32 := broadcastInDim S524288x64 ![0, 1] bcast_S524288x1_S524288x64_0_1 v20
  Host.divf v13 v21

/-- Node rows summed into their subgraphs (`segment_sum(h, node_batch)`). -/
def poolRows (h : FVec Ideal S524288x128 .f32) (nb : IVec S524288 32) : FVec Ideal S8192x128 .f32 :=
  have cst_4 : FVec Ideal S_ .f32 := constant (F := Ideal) S_ .f32 0x00000000#32
  have v26 : FVec Ideal S8192x128 .f32 := broadcastInDim S8192x128 ![] bcast_S_S8192x128 cst_4
  have v27 : IVec S524288x1 32 := broadcastInDim S524288x1 ![0] bcast_S524288_S524288x1_0 nb
  Host.scatterAdd scatter_S8192x128_S524288x1_S524288x128_1_0_0_1 v26 v27 h

/-- The subgraph scores weighted, summed into their graphs, over the graphs' summed weights. -/
def weightedMean (s : FVec Ideal S8192x1 .f32) (w : FVec Ideal S8192x1 .f32) (sb : IVec S8192 32) : FVec Ideal S64x1 .f32 :=
  have v32 : FVec Ideal S8192x1 .f32 := mulf s w
  have cst_5 : FVec Ideal S_ .f32 := constant (F := Ideal) S_ .f32 0x00000000#32
  have v33 : FVec Ideal S64x1 .f32 := broadcastInDim S64x1 ![] bcast_S_S64x1 cst_5
  have v34 : IVec S8192x1 32 := broadcastInDim S8192x1 ![0] bcast_S8192_S8192x1_0 sb
  have v35 : FVec Ideal S64x1 .f32 := Host.scatterAdd scatter_S64x1_S8192x1_S8192x1_1_0_0_1 v33 v34 v32
  have cst_6 : FVec Ideal S_ .f32 := constant (F := Ideal) S_ .f32 0x00000000#32
  have v36 : FVec Ideal S64x1 .f32 := broadcastInDim S64x1 ![] bcast_S_S64x1 cst_6
  have v37 : IVec S8192x1 32 := broadcastInDim S8192x1 ![0] bcast_S8192_S8192x1_0 sb
  have v38 : FVec Ideal S64x1 .f32 := Host.scatterAdd scatter_S64x1_S8192x1_S8192x1_1_0_0_1 v36 v37 w
  Host.divf v35 v38

/-- The dense layer with a rectifier, entry (p, q): max(Σ_k a(p,k)·W_l(k,q) + Σ_k x(p,k)·W_r(k,q) + b(q), 0). -/
def denseRelu (a x : (⟨2, ![524288, 64]⟩ : Shape).Idx → EReal) (wl wr : (⟨2, ![64, 128]⟩ : Shape).Idx → EReal)
    (b : (⟨1, ![128]⟩ : Shape).Idx → EReal) : (⟨2, ![524288, 128]⟩ : Shape).Idx → EReal := fun i =>
  max ((∑ k : Fin 64, a (ix2 (i 0) k) * wl (ix2 k (i 1))) + (∑ k : Fin 64, x (ix2 (i 0) k) * wr (ix2 k (i 1))) + b (ix1 (i 1)))
    (Ideal.ofBits .f32 0x00000000#32)

/-- The leaky rectifier with slope the word 0x3C23D70A, on one extended real: t where t is positive, slope · t elsewhere. -/
def leaky (t : EReal) : EReal := if 0 < t then t else Ideal.ofBits .f32 0x3C23D70A#32 * t

/-- The two-layer head, entry (p, u): Σ_j leaky(Σ_k g(p,k)·W1(k,j) + b1(j)) · W2(j,u) + b2(u). -/
def head (g : (⟨2, ![8192, 128]⟩ : Shape).Idx → EReal) (w1 : (⟨2, ![128, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![8192, 1]⟩ : Shape).Idx → EReal := fun i =>
  (∑ j : Fin 128, leaky ((∑ k : Fin 128, g (ix2 (i 0) k) * w1 (ix2 k j)) + b1 (ix1 j)) * w2 (ix2 j (i 1))) + b2 (ix1 (i 1))

/-- The whole result as one function of the twelve arguments. -/
def result (x : FVec Ideal S524288x64 .f32) (ei : IVec S2x2097152 32) (nb : IVec S524288 32) (w : FVec Ideal S8192x1 .f32)
    (sb : IVec S8192 32) (wl wr : FVec Ideal S64x128 .f32) (b : FVec Ideal S128 .f32) (w1 : FVec Ideal S128x128 .f32)
    (b1 : FVec Ideal S128 .f32) (w2 : FVec Ideal S128x1 .f32) (b2 : FVec Ideal S1 .f32) : FVec Ideal S64x1 .f32 :=
  weightedMean (head (poolRows (denseRelu (meanNeighbours x ei) x wl wr b) nb) w1 b1 w2 b2) w sb

end Cert.Sage

end
-- ==== Proof.Leaky.lean ====
/-
  The leaky rectifier on the extended reals, through either comparison.

  One program selects on t > 0, the other on t ≥ 0. They differ only at t = 0, where the first answers slope · 0 and the
  second answers t, and both are 0. So both selects are the one function `leaky`.
-/
import proofs.«113190_j72541997629472_1_alg».proof.Proof.Stages
import Idealize.ShloMosaic.PureOps.Ideal.Laws

noncomputable section

namespace Cert.Sage

open Idealize.ShloMosaic Idealize.ShloMosaic.ValueIdx

/-- The select on `t > 0`. -/
theorem select_gt (t : EReal) :
    Scalar.select (Ideal.cmp .ogt t (Ideal.ofBits .f32 0x00000000#32)) t (Ideal.ofBits .f32 0x3C23D70A#32 * t) = leaky t := by
  have e : Ideal.cmp .ogt t (Ideal.ofBits .f32 0x00000000#32) = BitVec.ofBool (decide ((0 : EReal) < t)) := by
    rw [Ideal.ofBits_zero_f32]; rfl
  rw [e]; unfold leaky
  by_cases h : (0 : EReal) < t
  · rw [if_pos h, decide_eq_true h]; exact select_one _ _
  · rw [if_neg h, decide_eq_false h]; exact select_zero _ _

/-- The select on `t ≥ 0`: at `t = 0` it answers `t`, which is `slope · 0`. -/
theorem select_ge (t : EReal) :
    Scalar.select (Ideal.cmp .oge t (Ideal.ofBits .f32 0x00000000#32)) t (Ideal.ofBits .f32 0x3C23D70A#32 * t) = leaky t := by
  have e : Ideal.cmp .oge t (Ideal.ofBits .f32 0x00000000#32) = BitVec.ofBool (decide ((0 : EReal) ≤ t)) := by
    rw [Ideal.ofBits_zero_f32]; rfl
  rw [e]; unfold leaky
  by_cases h : (0 : EReal) < t
  · rw [if_pos h, decide_eq_true (le_of_lt h)]; exact select_one _ _
  · rw [if_neg h]
    by_cases h0 : (0 : EReal) ≤ t
    · have ht : t = 0 := le_antisymm (not_lt.mp h) h0
      rw [decide_eq_true h0]
      refine (select_one _ _).trans ?_
      rw [ht, mul_zero]
    · rw [decide_eq_false h0]; exact select_zero _ _

end Cert.Sage

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«113190_j72541997629472_1_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibLinear.lean ====
/-
  A linear layer — a matrix product plus one bias row repeated down the rows — read at an index at the exact
  instance, for any extents, on the vector unit and on the host.

  * `vectorLinear_apply`: the vector unit's `h · W` into a zero accumulator plus a one-row bias broadcast down the rows,
    at `(p, q)`, is `∑ k, h(p, k) · W(k, q) + b(0, q)`.
  * `hostLinear_apply`: the host's `dot_general h W` plus a one-row bias broadcast down the rows (`dims = [0, 1]`), at
    `(p, q)`, is the same sum.
  * `row_eq_cast`: a vector laid as one row by a broadcast (`dims = [1]`) and the same vector reshaped to one row are
    one array.
-/
import Idealize.ShloMosaic.Lib.ValueIdx
import Idealize.ShloMosaic.Lib.ValueLayout
import Idealize.ShloMosaic.Lib.Pipeline.Value
import Idealize.ShloMosaic.PureOps.Ideal.Laws
import proofs.«113190_j72541997629472_1_alg».proof.Proof.LibMatmul2d
import proofs.«113190_j72541997629472_1_alg».proof.Proof.LibHostStack
import proofs.«113190_j72541997629472_1_alg».proof.Proof.LibColumns

noncomputable section

namespace Cert.LibLinear

open Idealize.ShloMosaic Idealize.ShloMosaic.ValueIdx
open scoped BigOperators

variable {n K N : ℕ}

/-- A linear layer on the vector unit, at `(p, q)`. -/
theorem vectorLinear_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    addf (matmul (DotDims.plain n K N) none h W (constant ⟨2, ![n, N]⟩ .f32 0x00000000#32)) (broadcastTo ⟨2, ![n, N]⟩ b hb) (ix2 p q)
      = ∑ k : Fin K, h (ix2 p k) * W (ix2 k q) + b (ix2 (0 : Fin 1) q) := by
  have h1 := Cert.LibMatmul2d.matmul_plain_apply h W p q
  have h2 := broadcastTo_1b_ab_apply b hb p q
  show FloatOps.matmul (DotDims.plain n K N) none h W (constant ⟨2, ![n, N]⟩ .f32 0x00000000#32) (ix2 p q)
      + broadcastTo ⟨2, ![n, N]⟩ b hb (ix2 p q) = _
  rw [h1, h2]

/-- A linear layer on the host, its bias already one row, at `(p, q)`. -/
theorem hostLinear_apply {φ₁ φ₂ : FTy} (h : FVec Ideal ⟨2, ![n, K]⟩ φ₁) (W : FVec Ideal ⟨2, ![K, N]⟩ φ₂)
    (b : FVec Ideal ⟨2, ![1, N]⟩ .f32)
    (h₂ : (⟨2, ![1, N]⟩ : Shape).BroadcastsInDim ⟨2, ![n, N]⟩ (![0, 1] : Fin 2 → Fin (⟨2, ![n, N]⟩ : Shape).rank))
    (p : Fin n) (q : Fin N) :
    addf (Host.dotGeneral (DotDims.plain n K N) none h W) (broadcastInDim ⟨2, ![n, N]⟩ ![0, 1] h₂ b) (ix2 p q)
      = ∑ k : Fin K, h (ix2 p k) * W (ix2 k q) + b (ix2 (0 : Fin 1) q) := by
  have h1 := Cert.LibHostStack.dotGeneral_plain_apply h W p q
  have h2 := Cert.LibColumns.broadcastInDim_1b_ab_apply (a := n) b h₂ p q
  show Host.dotGeneral (DotDims.plain n K N) none h W (ix2 p q) + broadcastInDim ⟨2, ![n, N]⟩ ![0, 1] h₂ b (ix2 p q) = _
  rw [h1, h2]

/-- A vector reshaped to one row is the vector laid as one row by a broadcast. -/
theorem row_eq_cast {α : Type} (x : (⟨1, ![N]⟩ : Shape).Idx → α) (hc : (⟨1, ![N]⟩ : Shape).ShapeCasts ⟨2, ![1, N]⟩)
    (h₁ : (⟨1, ![N]⟩ : Shape).BroadcastsInDim ⟨2, ![1, N]⟩ (![1] : Fin 1 → Fin (⟨2, ![1, N]⟩ : Shape).rank)) :
    shapeCast ⟨2, ![1, N]⟩ x hc = broadcastInDim ⟨2, ![1, N]⟩ ![1] h₁ x := by
  funext j
  obtain ⟨u, q, rfl⟩ : ∃ (u : Fin 1) (q : Fin N), j = ix2 u q := ⟨j 0, j 1, eq_ix2 j⟩
  rw [Cert.LibColumns.broadcastInDim_b_1b_apply x h₁ u q]
  refine shapeCast_apply x hc _ _ ?_
  rw [Shape.rowMajor_val_two, Shape.rowMajor_val_one]
  have hu : u.val = 0 := by have := u.isLt; omega
  show q.val = u.val * N + q.val
  rw [hu, Nat.zero_mul, Nat.zero_add]

end Cert.LibLinear

end
-- ==== Proof.Payloads.lean ====
/-
  The two kernel bodies' stored values read at an index, as functions of the loaded blocks.

  The dense body stores, at row p and column q of its block, max(Σ_k x0(p,k)·x2(k,q) + Σ_k x1(p,k)·x3(k,q) + x4(q), 0): two
  matrix products into zero accumulators, added, plus the bias laid as one row and repeated down the rows, against a zero.
  The head body stores Σ_j leaky(Σ_k x0(p,k)·x1(k,j) + x2(j))·x3(j,u) + x4(u): a linear layer, the leaky rectifier entry by
  entry, and a second linear layer. A change of float format is the identity on the extended reals.
-/
import proofs.«113190_j72541997629472_1_alg».proof.Proof.Gen.KernelIdeal.Skeleton
import proofs.«113190_j72541997629472_1_alg».proof.Proof.Leaky
import proofs.«113190_j72541997629472_1_alg».proof.Proof.LibLinear
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen Cert.KernelIdeal.Facts₀
open scoped BigOperators

/-- The dense body's stored value at (p, q). -/
theorem densePayload_apply (x0 x1 : Vec Ideal S4096x64 .f32) (x2 x3 : Vec Ideal S64x128 .bf16) (x4 : Vec Ideal S128 .f32)
    (p : Fin 4096) (q : Fin 128) :
    k0_pay1 x0 x1 x2 x3 x4 (ix2 p q)
      = max ((∑ k : Fin 64, x0 (ix2 p k) * x2 (ix2 k q)) + (∑ k : Fin 64, x1 (ix2 p k) * x3 (ix2 k q)) + x4 (ix1 q))
          (Ideal.ofBits .f32 0x00000000#32) := by
  unfold k0_pay1
  refine (maximumf_apply _ _ _).trans (congrArg₂ max ?_ rfl)
  refine (addf_apply _ _ _).trans (congrArg₂ (· + ·) ((addf_apply _ _ _).trans (congrArg₂ (· + ·) ?_ ?_)) ?_)
  · exact (Cert.LibMatmul2d.matmul_plain_apply (M := 4096) (K := 64) (N := 128) _ _ p q).trans
      (Finset.sum_congr rfl fun k _ => by rw [truncf_apply, shapeCast_self, shapeCast_self])
  · exact (Cert.LibMatmul2d.matmul_plain_apply (M := 4096) (K := 64) (N := 128) _ _ p q).trans
      (Finset.sum_congr rfl fun k _ => by rw [truncf_apply, shapeCast_self])
  · exact (broadcastTo_1b_ab_apply _ _ p q).trans (shapeCast_a_1a_apply x4 _ 0 q)

/-- The leaky rectifier as the body spells it (the select on t > 0, then the change of format), entry by entry. -/
theorem leakyVec_apply (t : FVec Ideal S8192x128 .f32) (i : S8192x128.Idx) :
    (truncf .bf16 (select (cmpf .ogt t (broadcast S8192x128 (Scalar.ofBits (F := Ideal) .f32 0x00000000#32))) t
        (mulf (broadcast S8192x128 (Scalar.ofBits (F := Ideal) .f32 0x3C23D70A#32)) t)) Cert.KernelIdeal.Facts₀.bitsLt_bf16_f32 : FVec Ideal S8192x128 .bf16) i
      = leaky (t i) :=
  select_gt (t i)

/-- The head body's stored value at (p, u). -/
theorem headPayload_apply (x0 : Vec Ideal S8192x128 .f32) (x1 : Vec Ideal S128x128 .bf16) (x2 : Vec Ideal S128 .f32)
    (x3 : Vec Ideal S128x1 .bf16) (x4 : Vec Ideal S1 .f32) (p : Fin 8192) (u : Fin 1) :
    k1_pay1 x0 x1 x2 x3 x4 (ix2 p u)
      = (∑ j : Fin 128, leaky ((∑ k : Fin 128, x0 (ix2 p k) * x1 (ix2 k j)) + x2 (ix1 j)) * x3 (ix2 j u)) + x4 (ix1 u) := by
  unfold k1_pay1
  refine (Cert.LibLinear.vectorLinear_apply (n := 8192) (K := 128) (N := 1) _ _ _ _ p u).trans ?_
  refine congrArg₂ (· + ·) (Finset.sum_congr rfl fun j _ => congrArg₂ (· * ·) ?_ ?_) ?_
  · refine (leakyVec_apply _ (ix2 p j)).trans (congrArg leaky ?_)
    refine (Cert.LibLinear.vectorLinear_apply (n := 8192) (K := 128) (N := 128) _ _ _ _ p j).trans ?_
    refine congrArg₂ (· + ·) (Finset.sum_congr rfl fun k _ => ?_) ?_
    · rw [truncf_apply, shapeCast_self, shapeCast_self]
    · exact shapeCast_a_1a_apply x2 _ 0 j
  · rw [shapeCast_self]
  · exact shapeCast_a_1a_apply x4 _ 0 u

end Cert.Sage

end
-- ==== Proof.DenseBlocks.lean ====
/-
  The first region's output array, whole: the dense layer with its rectifier of the arrays as the region finds them.

  The grid has 128 points. Point t fetches rows 4096·t … 4096·t + 4095 of the two row operands and the whole of the two weight
  matrices and of the bias, and writes back rows 4096·t … 4096·t + 4095 of the output. An entry of the output depends on its own
  row of the row operands only, so block t of the output is block t of one whole-array function, and the 128 blocks tile the
  array: row r lies in block r / 4096.
-/
import proofs.«113190_j72541997629472_1_alg».proof.Proof.Gen.KernelIdeal.Frame
import proofs.«113190_j72541997629472_1_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- One block of the dense layer: if the loaded row blocks are rows `r·4096 …` of `a` and `x` and the other loads are the whole
    weights and bias, the stored value at `y` is `denseRelu` at the array index `i` with `i 0 = r·4096 + y 0`, `i 1 = y 1`. -/
theorem dense_block (a x : (⟨2, ![524288, 64]⟩ : Shape).Idx → EReal) (wl wr : (⟨2, ![64, 128]⟩ : Shape).Idx → EReal)
    (b : (⟨1, ![128]⟩ : Shape).Idx → EReal)
    (x0 x1 : Vec Ideal S4096x64 .f32) (x2 x3 : Vec Ideal S64x128 .bf16) (x4 : Vec Ideal S128 .f32) (r : ℕ)
    (h0 : ∀ (p : Fin 4096) (k : Fin 64) (P : Fin 524288), P.val = r * 4096 + p.val → x0 (ix2 p k) = a (ix2 P k))
    (h1 : ∀ (p : Fin 4096) (k : Fin 64) (P : Fin 524288), P.val = r * 4096 + p.val → x1 (ix2 p k) = x (ix2 P k))
    (h2 : ∀ j, x2 j = wl j) (h3 : ∀ j, x3 j = wr j) (h4 : ∀ j, x4 j = b j)
    (y : (⟨2, ![4096, 128]⟩ : Shape).Idx) (i : (⟨2, ![524288, 128]⟩ : Shape).Idx)
    (hi0 : (i 0).val = r * 4096 + (y 0).val) (hi1 : (i 1).val = (y 1).val) :
    k0_pay1 x0 x1 x2 x3 x4 y = Cert.Sage.denseRelu a x wl wr b i := by
  obtain ⟨p, q, rfl⟩ : ∃ (p : Fin 4096) (q : Fin 128), y = ix2 p q := ⟨y 0, y 1, eq_ix2 y⟩
  obtain ⟨P, Q, rfl⟩ : ∃ (P : Fin 524288) (Q : Fin 128), i = ix2 P Q := ⟨i 0, i 1, eq_ix2 i⟩
  have hP : P.val = r * 4096 + p.val := hi0
  obtain rfl : Q = q := Fin.ext hi1
  rw [Cert.Sage.densePayload_apply]
  unfold Cert.Sage.denseRelu
  show max _ _ = max ((∑ k : Fin 64, a (ix2 P k) * wl (ix2 k Q)) + (∑ k : Fin 64, x (ix2 P k) * wr (ix2 k Q)) + b (ix1 Q)) _
  rw [h4 (ix1 Q)]
  refine congrArg₂ max (congrArg₂ (· + ·) (congrArg₂ (· + ·) ?_ ?_) rfl) rfl
  · exact Finset.sum_congr rfl fun k _ => by rw [h0 p k P hP, h2]
  · exact Finset.sum_congr rfl fun k _ => by rw [h1 p k P hP, h3]

/-- The printed index maps over the grid: the row operands and the output move with the point along the rows; the weights and
    the bias stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of `denseRelu` of the arrays as the region finds them. -/
theorem dense_flushed (c : Dev nD) (t : Fin cfg0.N) :
    (dat0 V c).flushed 5 t = ((cfg0.win 5).blk t).view.read (Elt Ideal)
      (Cert.Sage.denseRelu (V c main_v22) (V c main_arg0) (V c main_v23) (V c main_v24) (V c main_arg7)) := by
  show (cfg0.win 5).cut (grid0.coords t) ((dat0 V c).after 5 t) = _
  rw [after0_5]
  unfold out0_5
  rw [View.canon_unit_zero hz2]
  simp only [View.ld_unit_zero (S := S4096x64) hz2, View.ld_unit_zero (S := S64x128) hz2, View.ld_unit_zero (S := S128) hz1]
  obtain ⟨e00, e01, e10, e11, e20, e21, e30, e31, e40, e50, e51⟩ := idx0 t
  funext j
  show k0_pay1 (iblk0 V c 0 t) (iblk0 V c 1 t) (iblk0 V c 2 t) (iblk0 V c 3 t) (iblk0 V c 4 t) j
    = Cert.Sage.denseRelu (V c main_v22) (V c main_arg0) (V c main_v23) (V c main_v24) (V c main_arg7) (((cfg0.win 5).blk t).view.emb j)
  refine dense_block (V c main_v22) (V c main_arg0) (V c main_v23) (V c main_v24) (V c main_arg7) _ _ _ _ _ t.val ?_ ?_ ?_ ?_ ?_ j _ ?_ ?_
  · intro p k P hP
    show V c main_v22 (((cfg0.win 0).blk t).view.emb (ix2 p k)) = V c main_v22 (ix2 P k)
    refine congrArg _ (funext fun ax => Fin.ext ?_)
    match ax with
    | ⟨0, _⟩ => show win0_0.index t (0 : Fin 2) * 4096 + 1 * p.val = P.val; rw [e00, hP]; omega
    | ⟨1, _⟩ => show win0_0.index t (1 : Fin 2) * 64 + 1 * k.val = k.val; rw [e01]; omega
  · intro p k P hP
    show V c main_arg0 (((cfg0.win 1).blk t).view.emb (ix2 p k)) = V c main_arg0 (ix2 P k)
    refine congrArg _ (funext fun ax => Fin.ext ?_)
    match ax with
    | ⟨0, _⟩ => show win0_1.index t (0 : Fin 2) * 4096 + 1 * p.val = P.val; rw [e10, hP]; omega
    | ⟨1, _⟩ => show win0_1.index t (1 : Fin 2) * 64 + 1 * k.val = k.val; rw [e11]; omega
  · intro y
    show V c main_v23 (((cfg0.win 2).blk t).view.emb y) = V c main_v23 y
    refine congrArg _ (funext fun ax => Fin.ext ?_)
    match ax with
    | ⟨0, _⟩ => show win0_2.index t (0 : Fin 2) * 64 + 1 * (y 0).val = (y 0).val; rw [e20]; omega
    | ⟨1, _⟩ => show win0_2.index t (1 : Fin 2) * 128 + 1 * (y 1).val = (y 1).val; rw [e21]; omega
  · intro y
    show V c main_v24 (((cfg0.win 3).blk t).view.emb y) = V c main_v24 y
    refine congrArg _ (funext fun ax => Fin.ext ?_)
    match ax with
    | ⟨0, _⟩ => show win0_3.index t (0 : Fin 2) * 64 + 1 * (y 0).val = (y 0).val; rw [e30]; omega
    | ⟨1, _⟩ => show win0_3.index t (1 : Fin 2) * 128 + 1 * (y 1).val = (y 1).val; rw [e31]; omega
  · intro y
    show V c main_arg7 (((cfg0.win 4).blk t).view.emb y) = V c main_arg7 y
    refine congrArg _ (funext fun ax => Fin.ext ?_)
    match ax with
    | ⟨0, _⟩ => show win0_4.index t (0 : Fin 1) * 128 + 1 * (y 0).val = (y 0).val; rw [e40]; omega
  · show win0_5.index t (0 : Fin 2) * 4096 + 1 * (j 0).val = t.val * 4096 + (j 0).val; rw [e50]; omega
  · show win0_5.index t (1 : Fin 2) * 128 + 1 * (j 1).val = (j 1).val; rw [e51]; omega

/-- An index of the output array is in point `t`'s block iff each coordinate is in the block's range on its axis. -/
theorem mem_blk5 (t : Fin cfg0.N) (i : S524288x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v25).slice (win0_5.rect t)).set ↔ _
  rw [View.set_slice_whole, Rect.mem_set_unit]
  exact Iff.rfl

/-- Every index of the output array is in some point's block: row `r` is in block `r / 4096`. -/
theorem dense_cover (i : S524288x128.Idx) :
    ∃ t : Fin cfg0.N, (cfg0.win 5).flush t = true ∧ i ∈ ((cfg0.win 5).blk t).view.set := by
  have hi0 : (i 0).val < 524288 := (i 0).isLt
  have hi1 : (i 1).val < 128 := (i 1).isLt
  have hN : cfg0.N = 128 := N_0
  have hlt : (i 0).val / 4096 < cfg0.N := by rw [hN]; omega
  refine ⟨⟨(i 0).val / 4096, hlt⟩, flush0_5 _, ?_⟩
  rw [mem_blk5]
  obtain ⟨-, -, -, -, -, -, -, -, -, e50, e51⟩ := idx0 ⟨(i 0).val / 4096, hlt⟩
  have e50' : win0_5.index ⟨(i 0).val / 4096, hlt⟩ (0 : Fin 2) = (i 0).val / 4096 := e50
  intro a
  match a with
  | ⟨0, _⟩ =>
    show win0_5.index ⟨(i 0).val / 4096, hlt⟩ (0 : Fin 2) * 4096 ≤ (i 0).val ∧ (i 0).val < win0_5.index ⟨(i 0).val / 4096, hlt⟩ (0 : Fin 2) * 4096 + 4096
    rw [e50']; omega
  | ⟨1, _⟩ =>
    show win0_5.index ⟨(i 0).val / 4096, hlt⟩ (1 : Fin 2) * 128 ≤ (i 1).val ∧ (i 1).val < win0_5.index ⟨(i 0).val / 4096, hlt⟩ (1 : Fin 2) * 128 + 128
    rw [e51]; omega

/-- The first region's output array after the region: the dense layer of the arrays as the region finds them. -/
theorem dense_final (c : Dev nD) :
    (dat0 V c).arrAt 5 cfg0.N
      = Cert.Sage.denseRelu (V c main_v22) (V c main_arg0) (V c main_v23) (V c main_v24) (V c main_arg7) :=
  (dat0 V c).arrAt_eq_of_cover 5 _ (fun t _ => dense_flushed V c t) dense_cover

end Cert.KernelIdeal.Hand

end
-- ==== Proof.HeadBlocks.lean ====
/-
  The second region's output array, whole: the two-layer head of the arrays as the region finds them.

  The grid has one point; every window's block is its whole array, fetched from and written back at offset zero. So the one
  block written back is the head of the whole input arrays, and it covers the output array.
-/
import proofs.«113190_j72541997629472_1_alg».proof.Proof.Gen.KernelIdeal.Frame
import proofs.«113190_j72541997629472_1_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a <;> rfl

/-- The head body's stored value is `head` of its loads, as whole arrays. -/
theorem headPayload_eq (g : Vec Ideal S8192x128 .f32) (w1 : Vec Ideal S128x128 .bf16) (b1 : Vec Ideal S128 .f32)
    (w2 : Vec Ideal S128x1 .bf16) (b2 : Vec Ideal S1 .f32) :
    k1_pay1 g w1 b1 w2 b2 = Cert.Sage.head g w1 b1 w2 b2 := by
  funext y
  obtain ⟨p, u, rfl⟩ : ∃ (p : Fin 8192) (u : Fin 1), y = ix2 p u := ⟨y 0, y 1, eq_ix2 y⟩
  rw [Cert.Sage.headPayload_apply]
  rfl

/-- The one block of the head: loads that are the whole arrays give `head` of the arrays, at the same index. -/
theorem head_block (g : (⟨2, ![8192, 128]⟩ : Shape).Idx → EReal) (w1 : (⟨2, ![128, 128]⟩ : Shape).Idx → EReal)
    (b1 : (⟨1, ![128]⟩ : Shape).Idx → EReal) (w2 : (⟨2, ![128, 1]⟩ : Shape).Idx → EReal) (b2 : (⟨1, ![1]⟩ : Shape).Idx → EReal)
    (x0 : Vec Ideal S8192x128 .f32) (x1 : Vec Ideal S128x128 .bf16) (x2 : Vec Ideal S128 .f32) (x3 : Vec Ideal S128x1 .bf16)
    (x4 : Vec Ideal S1 .f32)
    (h0 : ∀ j, x0 j = g j) (h1 : ∀ j, x1 j = w1 j) (h2 : ∀ j, x2 j = b1 j) (h3 : ∀ j, x3 j = w2 j) (h4 : ∀ j, x4 j = b2 j)
    (y i : (⟨2, ![8192, 1]⟩ : Shape).Idx) (hi : i = y) :
    k1_pay1 x0 x1 x2 x3 x4 y = Cert.Sage.head g w1 b1 w2 b2 i := by
  subst hi
  obtain rfl : x0 = g := funext h0
  obtain rfl : x1 = w1 := funext h1
  obtain rfl : x2 = b1 := funext h2
  obtain rfl : x3 = w2 := funext h3
  obtain rfl : x4 = b2 := funext h4
  exact congrFun (headPayload_eq x0 x1 x2 x3 x4) i

/-- The printed index maps at the grid's one point: every block index is zero. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- What the point writes back is the block of `head` of the arrays as the region finds them. -/
theorem head_flushed (c : Dev nD) (t : Fin cfg1.N) :
    (dat1 V c).flushed 5 t = ((cfg1.win 5).blk t).view.read (Elt Ideal)
      (Cert.Sage.head (V c main_v28) (V c main_v29) (V c main_arg9) (V c main_v30) (V c main_arg11)) := by
  show (cfg1.win 5).cut (grid1.coords t) ((dat1 V c).after 5 t) = _
  rw [after1_5]
  unfold out1_5
  rw [View.canon_unit_zero hz2']
  simp only [View.ld_unit_zero (S := S8192x128) hz2', View.ld_unit_zero (S := S128x128) hz2', View.ld_unit_zero (S := S128) hz1',
    View.ld_unit_zero (S := S128x1) hz2', View.ld_unit_zero (S := S1) hz1']
  obtain ⟨e00, e01, e10, e11, e20, e30, e31, e40, e50, e51⟩ := idx1 t
  funext j
  show k1_pay1 (iblk1 V c 0 t) (iblk1 V c 1 t) (iblk1 V c 2 t) (iblk1 V c 3 t) (iblk1 V c 4 t) j
    = Cert.Sage.head (V c main_v28) (V c main_v29) (V c main_arg9) (V c main_v30) (V c main_arg11) (((cfg1.win 5).blk t).view.emb j)
  refine head_block (V c main_v28) (V c main_v29) (V c main_arg9) (V c main_v30) (V c main_arg11) _ _ _ _ _ ?_ ?_ ?_ ?_ ?_ j _ ?_
  · intro y
    show V c main_v28 (((cfg1.win 0).blk t).view.emb y) = V c main_v28 y
    refine congrArg _ (funext fun ax => Fin.ext ?_)
    match ax with
    | ⟨0, _⟩ => show win1_0.index t (0 : Fin 2) * 8192 + 1 * (y 0).val = (y 0).val; rw [e00]; omega
    | ⟨1, _⟩ => show win1_0.index t (1 : Fin 2) * 128 + 1 * (y 1).val = (y 1).val; rw [e01]; omega
  · intro y
    show V c main_v29 (((cfg1.win 1).blk t).view.emb y) = V c main_v29 y
    refine congrArg _ (funext fun ax => Fin.ext ?_)
    match ax with
    | ⟨0, _⟩ => show win1_1.index t (0 : Fin 2) * 128 + 1 * (y 0).val = (y 0).val; rw [e10]; omega
    | ⟨1, _⟩ => show win1_1.index t (1 : Fin 2) * 128 + 1 * (y 1).val = (y 1).val; rw [e11]; omega
  · intro y
    show V c main_arg9 (((cfg1.win 2).blk t).view.emb y) = V c main_arg9 y
    refine congrArg _ (funext fun ax => Fin.ext ?_)
    match ax with
    | ⟨0, _⟩ => show win1_2.index t (0 : Fin 1) * 128 + 1 * (y 0).val = (y 0).val; rw [e20]; omega
  · intro y
    show V c main_v30 (((cfg1.win 3).blk t).view.emb y) = V c main_v30 y
    refine congrArg _ (funext fun ax => Fin.ext ?_)
    match ax with
    | ⟨0, _⟩ => show win1_3.index t (0 : Fin 2) * 128 + 1 * (y 0).val = (y 0).val; rw [e30]; omega
    | ⟨1, _⟩ => show win1_3.index t (1 : Fin 2) * 1 + 1 * (y 1).val = (y 1).val; rw [e31]; omega
  · intro y
    show V c main_arg11 (((cfg1.win 4).blk t).view.emb y) = V c main_arg11 y
    refine congrArg _ (funext fun ax => Fin.ext ?_)
    match ax with
    | ⟨0, _⟩ => show win1_4.index t (0 : Fin 1) * 1 + 1 * (y 0).val = (y 0).val; rw [e40]; omega
  · refine funext fun ax => Fin.ext ?_
    match ax with
    | ⟨0, _⟩ => show win1_5.index t (0 : Fin 2) * 8192 + 1 * (j 0).val = (j 0).val; rw [e50]; omega
    | ⟨1, _⟩ => show win1_5.index t (1 : Fin 2) * 1 + 1 * (j 1).val = (j 1).val; rw [e51]; omega

/-- An index of the output array is in the point's block iff each coordinate is in the block's range on its axis. -/
theorem mem_blk1_5 (t : Fin cfg1.N) (i : S8192x1.Idx) :
    i ∈ ((cfg1.win 5).blk t).view.set ↔ ∀ a : Fin 2, win1_5.index t a * S8192x1.size a ≤ (i a).val ∧ (i a).val < win1_5.index t a * S8192x1.size a + S8192x1.size a := by
  show i ∈ ((View.whole main_v31).slice (win1_5.rect t)).set ↔ _
  rw [View.set_slice_whole, Rect.mem_set_unit]
  exact Iff.rfl

/-- The one block covers the output array. -/
theorem head_cover (i : S8192x1.Idx) :
    ∃ t : Fin cfg1.N, (cfg1.win 5).flush t = true ∧ i ∈ ((cfg1.win 5).blk t).view.set := by
  have hi0 : (i 0).val < 8192 := (i 0).isLt
  have hi1 : (i 1).val < 1 := (i 1).isLt
  refine ⟨t1_0, flush1_5 _, ?_⟩
  rw [mem_blk1_5]
  obtain ⟨-, -, -, -, -, -, -, -, e50, e51⟩ := idx1 t1_0
  intro a
  match a with
  | ⟨0, _⟩ =>
    show win1_5.index t1_0 (0 : Fin 2) * 8192 ≤ (i 0).val ∧ (i 0).val < win1_5.index t1_0 (0 : Fin 2) * 8192 + 8192
    rw [e50]; omega
  | ⟨1, _⟩ =>
    show win1_5.index t1_0 (1 : Fin 2) * 1 ≤ (i 1).val ∧ (i 1).val < win1_5.index t1_0 (1 : Fin 2) * 1 + 1
    rw [e51]; omega

/-- The second region's output array after the region: the head of the arrays as the region finds them. -/
theorem head_final (c : Dev nD) :
    (dat1 V c).arrAt 5 cfg1.N
      = Cert.Sage.head (V c main_v28) (V c main_v29) (V c main_arg9) (V c main_v30) (V c main_arg11) :=
  (dat1 V c).arrAt_eq_of_cover 5 _ (fun t _ => head_flushed V c t) head_cover

end Cert.KernelIdeal.Hand

end
-- ==== Proof.KernelValue.lean ====
/-
  The idealized kernel's result, read back to the launch contents of the twelve arguments.

  The contents of the buffers at the five segment boundaries are a fold from the launch memory: a host stretch applies its
  operations; a region leaves its input arrays as entered and its output array at what its write-backs leave. Read backwards
  from the result: the last stretch is the weighted mean of the second region's output; that output is the head of the pooled
  rows; the pooling is the middle stretch applied to the first region's output; that output is the dense layer of the mean of
  neighbours, which the first stretch computes. An argument's buffer is written by no operation and by no region, so at every
  boundary it still holds its launch contents.
-/
import proofs.«113190_j72541997629472_1_alg».proof.Proof.KernelRun
import proofs.«113190_j72541997629472_1_alg».proof.Proof.DenseBlocks
import proofs.«113190_j72541997629472_1_alg».proof.Proof.HeadBlocks
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-- A buffer that no operation of a stretch writes holds after the stretch what it held before. -/
local macro "untouched " ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## The three host stretches, each as a stage of what it reads -/

/-- The first stretch leaves the mean of neighbours in the buffer the first region reads as its first operand. -/
theorem agg_after (W : Valuation τ sig (Elt Ideal)) :
    after (hostOps0 (F := Ideal)) W (Proc.devRef .tc main_v22)
      = Cert.Sage.meanNeighbours (W (Proc.devRef .tc main_arg0)) (W (Proc.devRef .tc main_arg1)) := by
  after_results_simp
  rfl

/-- The two weight matrices in the narrower format are the weight matrices: a change of format is the identity. -/
theorem wl_after (W : Valuation τ sig (Elt Ideal)) :
    (after (hostOps0 (F := Ideal)) W (Proc.devRef .tc main_v23) : S64x128.Idx → EReal) = W (Proc.devRef .tc main_arg5) := by
  after_results_simp
  rfl
theorem wr_after (W : Valuation τ sig (Elt Ideal)) :
    (after (hostOps0 (F := Ideal)) W (Proc.devRef .tc main_v24) : S64x128.Idx → EReal) = W (Proc.devRef .tc main_arg6) := by
  after_results_simp
  rfl

/-- The middle stretch pools the first region's output rows into their subgraphs. -/
theorem pool_after (W : Valuation τ sig (Elt Ideal)) :
    after (hostOps1 (F := Ideal)) W (Proc.devRef .tc main_v28)
      = Cert.Sage.poolRows (W (Proc.devRef .tc main_v25)) (W (Proc.devRef .tc main_arg2)) := by
  after_results_simp
  rfl
theorem w1_after (W : Valuation τ sig (Elt Ideal)) :
    (after (hostOps1 (F := Ideal)) W (Proc.devRef .tc main_v29) : S128x128.Idx → EReal) = W (Proc.devRef .tc main_arg8) := by
  after_results_simp
  rfl
theorem w2_after (W : Valuation τ sig (Elt Ideal)) :
    (after (hostOps1 (F := Ideal)) W (Proc.devRef .tc main_v30) : S128x1.Idx → EReal) = W (Proc.devRef .tc main_arg10) := by
  after_results_simp
  rfl

/-- The last stretch is the weighted mean of the second region's output. -/
theorem tail_after (W : Valuation τ sig (Elt Ideal)) :
    after (hostOps2 (F := Ideal)) W (Proc.devRef .tc main_v39)
      = Cert.Sage.weightedMean (W (Proc.devRef .tc main_v31)) (W (Proc.devRef .tc main_arg3)) (W (Proc.devRef .tc main_arg4)) := by
  after_results_simp
  rfl

variable (m : (ℓ : Loc nD τ sig) → Buf (Elt Ideal) ℓ) (ρ : Dev nD → PrngReg) (c : Dev nD)

/-! ## The arguments at the first region's entry -/

theorem W1_arg0 : W1 m ρ c (Proc.devRef .tc main_arg0) = m ((c : Thread nD τ).loc main_arg0) := untouched hostOps0
theorem W1_arg2 : W1 m ρ c (Proc.devRef .tc main_arg2) = m ((c : Thread nD τ).loc main_arg2) := untouched hostOps0
theorem W1_arg3 : W1 m ρ c (Proc.devRef .tc main_arg3) = m ((c : Thread nD τ).loc main_arg3) := untouched hostOps0
theorem W1_arg4 : W1 m ρ c (Proc.devRef .tc main_arg4) = m ((c : Thread nD τ).loc main_arg4) := untouched hostOps0
theorem W1_arg7 : W1 m ρ c (Proc.devRef .tc main_arg7) = m ((c : Thread nD τ).loc main_arg7) := untouched hostOps0
theorem W1_arg8 : W1 m ρ c (Proc.devRef .tc main_arg8) = m ((c : Thread nD τ).loc main_arg8) := untouched hostOps0
theorem W1_arg9 : W1 m ρ c (Proc.devRef .tc main_arg9) = m ((c : Thread nD τ).loc main_arg9) := untouched hostOps0
theorem W1_arg10 : W1 m ρ c (Proc.devRef .tc main_arg10) = m ((c : Thread nD τ).loc main_arg10) := untouched hostOps0
theorem W1_arg11 : W1 m ρ c (Proc.devRef .tc main_arg11) = m ((c : Thread nD τ).loc main_arg11) := untouched hostOps0

/-! ## The first region's output, and the arguments at its exit -/

/-- The first region leaves the dense layer of the mean of neighbours in its output array. -/
theorem W2_v25 : W2 m ρ c (Proc.devRef .tc main_v25)
    = Cert.Sage.denseRelu (Cert.Sage.meanNeighbours (m ((c : Thread nD τ).loc main_arg0)) (m ((c : Thread nD τ).loc main_arg1))) (m ((c : Thread nD τ).loc main_arg0)) (m ((c : Thread nD τ).loc main_arg5)) (m ((c : Thread nD τ).loc main_arg6)) (m ((c : Thread nD τ).loc main_arg7)) := by
  refine (W2_arr m ρ c 5).trans ((dense_final (V1 m ρ) c).trans ?_)
  have e22 : V1 m ρ c main_v22 = Cert.Sage.meanNeighbours (m ((c : Thread nD τ).loc main_arg0)) (m ((c : Thread nD τ).loc main_arg1)) := agg_after (W0 m ρ c)
  have e0 : V1 m ρ c main_arg0 = m ((c : Thread nD τ).loc main_arg0) := W1_arg0 m ρ c
  have e23 : (V1 m ρ c main_v23 : S64x128.Idx → EReal) = m ((c : Thread nD τ).loc main_arg5) := wl_after (W0 m ρ c)
  have e24 : (V1 m ρ c main_v24 : S64x128.Idx → EReal) = m ((c : Thread nD τ).loc main_arg6) := wr_after (W0 m ρ c)
  have e7 : V1 m ρ c main_arg7 = m ((c : Thread nD τ).loc main_arg7) := W1_arg7 m ρ c
  rw [e22, e0, e23, e24, e7]

theorem W2_arg2 : W2 m ρ c (Proc.devRef .tc main_arg2) = m ((c : Thread nD τ).loc main_arg2) := (W2_of_ne m ρ c main_arg2 (by decide)).trans (W1_arg2 m ρ c)
theorem W2_arg3 : W2 m ρ c (Proc.devRef .tc main_arg3) = m ((c : Thread nD τ).loc main_arg3) := (W2_of_ne m ρ c main_arg3 (by decide)).trans (W1_arg3 m ρ c)
theorem W2_arg4 : W2 m ρ c (Proc.devRef .tc main_arg4) = m ((c : Thread nD τ).loc main_arg4) := (W2_of_ne m ρ c main_arg4 (by decide)).trans (W1_arg4 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)

/-! ## The second region's entry -/

theorem W3_arg3 : W3 m ρ c (Proc.devRef .tc main_arg3) = m ((c : Thread nD τ).loc main_arg3) := (untouched hostOps1 : _ = W2 m ρ c (Proc.devRef .tc main_arg3)).trans (W2_arg3 m ρ c)
theorem W3_arg4 : W3 m ρ c (Proc.devRef .tc main_arg4) = m ((c : Thread nD τ).loc main_arg4) := (untouched hostOps1 : _ = W2 m ρ c (Proc.devRef .tc main_arg4)).trans (W2_arg4 m ρ c)
theorem W3_arg9 : W3 m ρ c (Proc.devRef .tc main_arg9) = m ((c : Thread nD τ).loc main_arg9) := (untouched hostOps1 : _ = W2 m ρ c (Proc.devRef .tc main_arg9)).trans (W2_arg9 m ρ c)
theorem W3_arg11 : W3 m ρ c (Proc.devRef .tc main_arg11) = m ((c : Thread nD τ).loc main_arg11) := (untouched hostOps1 : _ = W2 m ρ c (Proc.devRef .tc main_arg11)).trans (W2_arg11 m ρ c)

/-- The pooled rows at the second region's entry. -/
theorem W3_v28 : W3 m ρ c (Proc.devRef .tc main_v28)
    = Cert.Sage.poolRows (Cert.Sage.denseRelu (Cert.Sage.meanNeighbours (m ((c : Thread nD τ).loc main_arg0)) (m ((c : Thread nD τ).loc main_arg1))) (m ((c : Thread nD τ).loc main_arg0)) (m ((c : Thread nD τ).loc main_arg5)) (m ((c : Thread nD τ).loc main_arg6)) (m ((c : Thread nD τ).loc main_arg7))) (m ((c : Thread nD τ).loc main_arg2)) :=
  (pool_after (W2 m ρ c)).trans (congrArg₂ Cert.Sage.poolRows (W2_v25 m ρ c) (W2_arg2 m ρ c))

/-! ## The second region's output, and the last stretch -/

/-- The second region leaves the head of the pooled rows in its output array. -/
theorem W4_v31 : W4 m ρ c (Proc.devRef .tc main_v31)
    = Cert.Sage.head (Cert.Sage.poolRows (Cert.Sage.denseRelu (Cert.Sage.meanNeighbours (m ((c : Thread nD τ).loc main_arg0)) (m ((c : Thread nD τ).loc main_arg1))) (m ((c : Thread nD τ).loc main_arg0)) (m ((c : Thread nD τ).loc main_arg5)) (m ((c : Thread nD τ).loc main_arg6)) (m ((c : Thread nD τ).loc main_arg7))) (m ((c : Thread nD τ).loc main_arg2)))
        (m ((c : Thread nD τ).loc main_arg8)) (m ((c : Thread nD τ).loc main_arg9)) (m ((c : Thread nD τ).loc main_arg10)) (m ((c : Thread nD τ).loc main_arg11)) := by
  refine (W4_arr m ρ c 5).trans ((head_final (V3 m ρ) c).trans ?_)
  have e28 : V3 m ρ c main_v28 = _ := W3_v28 m ρ c
  have e29 : (V3 m ρ c main_v29 : S128x128.Idx → EReal) = m ((c : Thread nD τ).loc main_arg8) := (w1_after (W2 m ρ c)).trans (W2_arg8 m ρ c)
  have e9 : V3 m ρ c main_arg9 = m ((c : Thread nD τ).loc main_arg9) := W3_arg9 m ρ c
  have e30 : (V3 m ρ c main_v30 : S128x1.Idx → EReal) = m ((c : Thread nD τ).loc main_arg10) := (w2_after (W2 m ρ c)).trans (W2_arg10 m ρ c)
  have e11 : V3 m ρ c main_arg11 = m ((c : Thread nD τ).loc main_arg11) := W3_arg11 m ρ c
  rw [e28, e29, e9, e30, e11]

theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)

/-- The result buffer at the last boundary is `result` of the arguments' launch contents. -/
theorem W5_v39 : W5 m ρ c (Proc.devRef .tc main_v39)
    = Cert.Sage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (tail_after (W4 m ρ c)).trans
    (congrArg₂ (fun s (w : FVec Ideal S8192x1 .f32) => Cert.Sage.weightedMean s w _) (W4_v31 m ρ c) (W4_arg3 m ρ c) |>.trans
      (congrArg (Cert.Sage.weightedMean _ _) (W4_arg4 m ρ c)))

end Cert.KernelIdeal.Hand

namespace Cert.KernelIdeal.Hand

open Cert.KernelIdeal Cert.KernelIdeal.Gen Idealize.ShloMosaic Idealize.ShloMosaic.TcCoe Idealize.SL.Sem

/-- The run, read: the result at `result` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39)
        = Cert.Sage.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W5_v39 m ρ c), (h c).2⟩) (run_result m ρ)

end Cert.KernelIdeal.Hand

end
-- ==== Proof.RefRun.lean ====
/-
  The reference program's @main as the list of its host operations, in order, and its run read back: every weakly
  fair execution terminates with every buffer at the fold of the operations over the launch memory.

  @main calls two outlined functions. The rectifier's three operations (the zero, its broadcast, the maximum) and
  the leaky rectifier's seven (the zero, its broadcast, the comparison t ≥ 0, the slope converted and broadcast, the
  product slope · t, and the select of the nested `where`) stand in their calls' places, over the calls' own buffers.
-/
import proofs.«113190_j72541997629472_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's sixty-eight operations, in order. -/
abbrev ops : List (HloOp τ sig (Elt F)) :=
  [ unary main_arg1 main_v0 (extractStridedSlice S1x2097152 ![0, 0] · slices_S2x2097152_S1x2097152_0_0),
    reshape main_v0 main_v1 rfl shapeCasts_S1x2097152_S2097152,
    unary main_arg1 main_v2 (extractStridedSlice S1x2097152 ![1, 0] · slices_S2x2097152_S1x2097152_1_0),
    reshape main_v2 main_v3 rfl shapeCasts_S1x2097152_S2097152,
    nullary main_c (constantI S_ 32 0#32),
    unary main_c main_v4 (broadcastInDim S2097152 ![] bcast_S_S2097152),
    binary main_v1 main_v4 main_v5 (cmpi .slt),
    nullary main_c_0 (constantI S_ 32 524288#32),
    unary main_c_0 main_v6 (broadcastInDim S2097152 ![] bcast_S_S2097152),
    binary main_v1 main_v6 main_v7 addi,
    ternary main_v5 main_v7 main_v1 main_v8 select,
    unary main_v8 main_v9 (broadcastInDim S2097152x1 ![0] bcast_S2097152_S2097152x1_0),
    binary main_arg0 main_v9 main_v10 (fun x i => Host.gather gather_S524288x64_S2097152x1_S2097152x64_1_0_n_n_0_1_164 x i),
    nullary main_cst (constant S_ .f32 0x00000000#32),
    unary main_cst main_v11 (broadcastInDim S524288x64 ![] bcast_S_S524288x64),
    unary main_v3 main_v12 (broadcastInDim S2097152x1 ![0] bcast_S2097152_S2097152x1_0),
    ternary main_v11 main_v12 main_v10 main_v13 (fun x i u => Host.scatterAdd scatter_S524288x64_S2097152x1_S2097152x64_1_0_0_1 x i u),
    nullary main_cst_1 (constant S_ .f32 0x3F800000#32),
    unary main_cst_1 main_v14 (broadcastInDim S2097152 ![] bcast_S_S2097152),
    nullary main_cst_2 (constant S_ .f32 0x00000000#32),
    unary main_cst_2 main_v15 (broadcastInDim S524288 ![] bcast_S_S524288),
    unary main_v3 main_v16 (broadcastInDim S2097152x1 ![0] bcast_S2097152_S2097152x1_0),
    ternary main_v15 main_v16 main_v14 main_v17 (fun x i u => Host.scatterAdd scatter_S524288_S2097152x1_S2097152_n_0_0_1 x i u),
    nullary main_cst_3 (constant S_ .f32 0x3F800000#32),
    unary main_cst_3 main_v18 (broadcastInDim S524288 ![] bcast_S_S524288),
    binary main_v17 main_v18 main_v19 maximumf,
    unary main_v19 main_v20 (broadcastInDim S524288x1 ![0] bcast_S524288_S524288x1_0),
    unary main_v20 main_v21 (broadcastInDim S524288x64 ![0, 1] bcast_S524288x1_S524288x64_0_1),
    binary main_v13 main_v21 main_v22 Host.divf,
    binary main_v22 main_arg5 main_v23 (fun l r => Host.dotGeneral dot_S524288x64_S64x128_S524288x128_1_0_0_1_n_n none l r),
    binary main_arg0 main_arg6 main_v24 (fun l r => Host.dotGeneral dot_S524288x64_S64x128_S524288x128_1_0_0_1_n_n none l r),
    binary main_v23 main_v24 main_v25 addf,
    unary main_arg7 main_v26 (broadcastInDim S1x128 ![1] bcast_S128_S1x128_1),
    unary main_v26 main_v27 (broadcastInDim S524288x128 ![0, 1] bcast_S1x128_S524288x128_0_1),
    binary main_v25 main_v27 main_v28 addf,
    TRef.nullary main_call0.cst (constant S_ .f32 0x00000000#32),
    TRef.unary main_call0.cst main_call0.v0 (broadcastInDim S524288x128 ![] bcast_S_S524288x128),
    TRef.binary (TRef.of (T := ⟨S524288x128, .f32⟩) main_v28) main_call0.v0 main_call0.v1 maximumf,
    nullary main_cst_4 (constant S_ .f32 0x00000000#32),
    unary main_cst_4 main_v30 (broadcastInDim S8192x128 ![] bcast_S_S8192x128),
    unary main_arg2 main_v31 (broadcastInDim S524288x1 ![0] bcast_S524288_S524288x1_0),
    ternary main_v30 main_v31 main_v29 main_v32 (fun x i u => Host.scatterAdd scatter_S8192x128_S524288x1_S524288x128_1_0_0_1 x i u),
    binary main_v32 main_arg8 main_v33 (fun l r => Host.dotGeneral dot_S8192x128_S128x128_S8192x128_1_0_0_1_n_n none l r),
    unary main_arg9 main_v34 (broadcastInDim S1x128 ![1] bcast_S128_S1x128_1),
    unary main_v34 main_v35 (broadcastInDim S8192x128 ![0, 1] bcast_S1x128_S8192x128_0_1),
    binary main_v33 main_v35 main_v36 addf,
    nullary main_cst_5 (constant S_ .f32 0x3C23D70A#32),
    TRef.nullary main_call1.cst (constant S_ .f32 0x00000000#32),
    TRef.unary main_call1.cst main_call1.v0 (broadcastInDim S8192x128 ![] bcast_S_S8192x128),
    TRef.binary (TRef.of (T := ⟨S8192x128, .f32⟩) main_v36) main_call1.v0 main_call1.v1 (cmpf .oge),
    TRef.unary (TRef.of (T := ⟨S_, .f32⟩) main_cst_5) main_call1.v2 id,
    TRef.unary main_call1.v2 main_call1.v3 (broadcastInDim S8192x128 ![] bcast_S_S8192x128),
    TRef.binary main_call1.v3 (TRef.of (T := ⟨S8192x128, .f32⟩) main_v36) main_call1.v4 mulf,
    TRef.ternary main_call1.v1 (TRef.of (T := ⟨S8192x128, .f32⟩) main_v36) main_call1.v4 main_call1.call0.v0 select,
    binary main_v37 main_arg10 main_v38 (fun l r => Host.dotGeneral dot_S8192x128_S128x1_S8192x1_1_0_0_1_n_n none l r),
    unary main_arg11 main_v39 (broadcastInDim S1x1 ![1] bcast_S1_S1x1_1),
    unary main_v39 main_v40 (broadcastInDim S8192x1 ![0, 1] bcast_S1x1_S8192x1_0_1),
    binary main_v38 main_v40 main_v41 addf,
    binary main_v41 main_arg3 main_v42 mulf,
    nullary main_cst_6 (constant S_ .f32 0x00000000#32),
    unary main_cst_6 main_v43 (broadcastInDim S64x1 ![] bcast_S_S64x1),
    unary main_arg4 main_v44 (broadcastInDim S8192x1 ![0] bcast_S8192_S8192x1_0),
    ternary main_v43 main_v44 main_v42 main_v45 (fun x i u => Host.scatterAdd scatter_S64x1_S8192x1_S8192x1_1_0_0_1 x i u),
    nullary main_cst_7 (constant S_ .f32 0x00000000#32),
    unary main_cst_7 main_v46 (broadcastInDim S64x1 ![] bcast_S_S64x1),
    unary main_arg4 main_v47 (broadcastInDim S8192x1 ![0] bcast_S8192_S8192x1_0),
    ternary main_v46 main_v47 main_arg3 main_v48 (fun x i u => Host.scatterAdd scatter_S64x1_S8192x1_S8192x1_1_0_0_1 x i u),
    binary main_v45 main_v48 main_v49 Host.divf ]

-- sixty-eight binds re-associated: the rewrite under the chain recurses once per statement
set_option maxRecDepth 4096 in
set_option maxHeartbeats 4000000 in
/-- @main is that straight line: the two windows of its statements in order, the called functions' bodies at their calls,
    and sequencing re-associated. -/
theorem main_eq (c : Dev nD) : main (F := F) c = seq ops := by
  simp only [main, main_part0, main_part1, fn_relu.body, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., binary_bufs_sub .., unary_bufs_sub .., unary_bufs_sub .., binary_bufs_sub ..,
    nullary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., binary_bufs_sub .., nullary_bufs_sub ..,
    unary_bufs_sub .., unary_bufs_sub .., ternary_bufs_sub .., nullary_bufs_sub .., unary_bufs_sub .., unary_bufs_sub ..,
    ternary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.HostLayers.lean ====
/-
  The reference's two layers, as the host spells them, are the functions `denseRelu` and `head` index by index.

  The dense layer on the host: two whole matrix products added, the bias laid as one row and repeated down the rows, the
  maximum against a broadcast zero. The head on the host: a matrix product plus a bias row, the leaky rectifier as a select on
  t ≥ 0 between t and slope · t, a second matrix product plus a bias row. At the exact instance a host product read at (p, q)
  is the sum over the contracted axis of the operands' products.
-/
import proofs.«113190_j72541997629472_1_alg».proof.Proof.Gen.ReferenceIdeal
import proofs.«113190_j72541997629472_1_alg».proof.Proof.Leaky
import proofs.«113190_j72541997629472_1_alg».proof.Proof.LibLinear
import Idealize.ShloMosaic.Lib.ValueLayout
import Idealize.ShloMosaic.Lib.Pipeline.Value

noncomputable section

namespace Cert.Sage

open Idealize.ShloMosaic Idealize.ShloMosaic.ValueIdx Cert.ReferenceIdeal Cert.ReferenceIdeal.Facts₀
open scoped BigOperators

/-- The reference's dense layer with its rectifier, as its host operations. -/
def denseHost (a x : FVec Ideal S524288x64 .f32) (wl wr : FVec Ideal S64x128 .f32) (b : FVec Ideal S128 .f32) :
    FVec Ideal S524288x128 .f32 :=
  maximumf
    (addf
      (addf (Host.dotGeneral dot_S524288x64_S64x128_S524288x128_1_0_0_1_n_n none a wl)
        (Host.dotGeneral dot_S524288x64_S64x128_S524288x128_1_0_0_1_n_n none x wr))
      (broadcastInDim S524288x128 ![0, 1] bcast_S1x128_S524288x128_0_1 (broadcastInDim S1x128 ![1] bcast_S128_S1x128_1 b)))
    (broadcastInDim S524288x128 ![] bcast_S_S524288x128 (constant (F := Ideal) S_ .f32 0x00000000#32))

/-- The reference's dense layer is `denseRelu`. -/
theorem denseHost_eq (a x : FVec Ideal S524288x64 .f32) (wl wr : FVec Ideal S64x128 .f32) (b : FVec Ideal S128 .f32) :
    denseHost a x wl wr b = denseRelu a x wl wr b := by
  funext i
  obtain ⟨p, q, rfl⟩ : ∃ (p : Fin 524288) (q : Fin 128), i = ix2 p q := ⟨i 0, i 1, eq_ix2 i⟩
  unfold denseHost denseRelu
  refine (maximumf_apply _ _ _).trans (congrArg₂ max ?_ rfl)
  refine (addf_apply _ _ _).trans (congrArg₂ (· + ·) ((addf_apply _ _ _).trans (congrArg₂ (· + ·) ?_ ?_)) ?_)
  · exact Cert.LibHostStack.dotGeneral_plain_apply (M := 524288) (K := 64) (N := 128) a wl p q
  · exact Cert.LibHostStack.dotGeneral_plain_apply (M := 524288) (K := 64) (N := 128) x wr p q
  · exact Cert.LibColumns.perColumnHost_apply (a := 524288) b _ _ p q

/-- The leaky rectifier as the host spells it (the select on t ≥ 0), entry by entry. -/
theorem leakyHost_apply (t : FVec Ideal S8192x128 .f32) (i : S8192x128.Idx) :
    select (cmpf .oge t (broadcastInDim S8192x128 ![] bcast_S_S8192x128 (constant (F := Ideal) S_ .f32 0x00000000#32))) t
        (mulf (broadcastInDim S8192x128 ![] bcast_S_S8192x128 (id (constant (F := Ideal) S_ .f32 0x3C23D70A#32))) t) i
      = leaky (t i) :=
  select_ge (t i)

/-- The reference's head, as its host operations. -/
def headHost (g : FVec Ideal S8192x128 .f32) (w1 : FVec Ideal S128x128 .f32) (b1 : FVec Ideal S128 .f32)
    (w2 : FVec Ideal S128x1 .f32) (b2 : FVec Ideal S1 .f32) : FVec Ideal S8192x1 .f32 :=
  have v36 : FVec Ideal S8192x128 .f32 :=
    addf (Host.dotGeneral dot_S8192x128_S128x128_S8192x128_1_0_0_1_n_n none g w1)
      (broadcastInDim S8192x128 ![0, 1] bcast_S1x128_S8192x128_0_1 (broadcastInDim S1x128 ![1] bcast_S128_S1x128_1 b1))
  have v37 : FVec Ideal S8192x128 .f32 :=
    select (cmpf .oge v36 (broadcastInDim S8192x128 ![] bcast_S_S8192x128 (constant (F := Ideal) S_ .f32 0x00000000#32))) v36
      (mulf (broadcastInDim S8192x128 ![] bcast_S_S8192x128 (id (constant (F := Ideal) S_ .f32 0x3C23D70A#32))) v36)
  addf (Host.dotGeneral dot_S8192x128_S128x1_S8192x1_1_0_0_1_n_n none v37 w2)
    (broadcastInDim S8192x1 ![0, 1] bcast_S1x1_S8192x1_0_1 (broadcastInDim S1x1 ![1] bcast_S1_S1x1_1 b2))

/-- The reference's head is `head`. -/
theorem headHost_eq (g : FVec Ideal S8192x128 .f32) (w1 : FVec Ideal S128x128 .f32) (b1 : FVec Ideal S128 .f32)
    (w2 : FVec Ideal S128x1 .f32) (b2 : FVec Ideal S1 .f32) : headHost g w1 b1 w2 b2 = head g w1 b1 w2 b2 := by
  funext i
  obtain ⟨p, u, rfl⟩ : ∃ (p : Fin 8192) (u : Fin 1), i = ix2 p u := ⟨i 0, i 1, eq_ix2 i⟩
  unfold headHost head
  refine (Cert.LibLinear.hostLinear_apply (n := 8192) (K := 128) (N := 1) _ _ _ _ p u).trans ?_
  refine congrArg₂ (· + ·) (Finset.sum_congr rfl fun j _ => congrArg₂ (· * ·) ?_ rfl) ?_
  · refine (leakyHost_apply _ (ix2 p j)).trans (congrArg leaky ?_)
    refine (Cert.LibLinear.hostLinear_apply (n := 8192) (K := 128) (N := 128) _ _ _ _ p j).trans ?_
    exact congrArg₂ (· + ·) rfl (Cert.LibColumns.broadcastInDim_b_1b_apply b1 _ 0 j)
  · exact Cert.LibColumns.broadcastInDim_b_1b_apply b2 _ 0 u

end Cert.Sage

end
-- ==== Proof.RefValue.lean ====
/-
  The reference's run, read: the result buffer ends at the composition of the five stages of the launch contents of the
  twelve arguments (the mean of neighbours, the dense layer, the pooling, the head, the weighted mean), and every argument
  buffer ends as launched.

  The sixty-eight operations are read in five windows, one per stage. Each window's result is a function of the buffers it
  reads; an argument's buffer is written by no window, so a later window reads it as launched.
-/
import proofs.«113190_j72541997629472_1_alg».proof.Proof.RefRun
import proofs.«113190_j72541997629472_1_alg».proof.Proof.HostLayers

noncomputable section

namespace Cert.ReferenceIdeal.Hand

open Cert.ReferenceIdeal Cert.ReferenceIdeal.Gen Idealize.ShloMosaic Idealize.ShloMosaic.TcCoe Idealize.SL.Sem Idealize.ShloMosaic.StableHlo

section Windows

variable {F : FTy → Type} [FloatOps F]

/-- The mean of neighbours: operations 1 to 29. -/
abbrev opsA : List (HloOp τ sig (Elt F)) :=
  [ unary main_arg1 main_v0 (extractStridedSlice S1x2097152 ![0, 0] · slices_S2x2097152_S1x2097152_0_0),
    reshape main_v0 main_v1 rfl shapeCasts_S1x2097152_S2097152,
    unary main_arg1 main_v2 (extractStridedSlice S1x2097152 ![1, 0] · slices_S2x2097152_S1x2097152_1_0),
    reshape main_v2 main_v3 rfl shapeCasts_S1x2097152_S2097152,
    nullary main_c (constantI S_ 32 0#32),
    unary main_c main_v4 (broadcastInDim S2097152 ![] bcast_S_S2097152),
    binary main_v1 main_v4 main_v5 (cmpi .slt),
    nullary main_c_0 (constantI S_ 32 524288#32),
    unary main_c_0 main_v6 (broadcastInDim S2097152 ![] bcast_S_S2097152),
    binary main_v1 main_v6 main_v7 addi,
    ternary main_v5 main_v7 main_v1 main_v8 select,
    unary main_v8 main_v9 (broadcastInDim S2097152x1 ![0] bcast_S2097152_S2097152x1_0),
    binary main_arg0 main_v9 main_v10 (fun x i => Host.gather gather_S524288x64_S2097152x1_S2097152x64_1_0_n_n_0_1_164 x i),
    nullary main_cst (constant S_ .f32 0x00000000#32),
    unary main_cst main_v11 (broadcastInDim S524288x64 ![] bcast_S_S524288x64),
    unary main_v3 main_v12 (broadcastInDim S2097152x1 ![0] bcast_S2097152_S2097152x1_0),
    ternary main_v11 main_v12 main_v10 main_v13 (fun x i u => Host.scatterAdd scatter_S524288x64_S2097152x1_S2097152x64_1_0_0_1 x i u),
    nullary main_cst_1 (constant S_ .f32 0x3F800000#32),
    unary main_cst_1 main_v14 (broadcastInDim S2097152 ![] bcast_S_S2097152),
    nullary main_cst_2 (constant S_ .f32 0x00000000#32),
    unary main_cst_2 main_v15 (broadcastInDim S524288 ![] bcast_S_S524288),
    unary main_v3 main_v16 (broadcastInDim S2097152x1 ![0] bcast_S2097152_S2097152x1_0),
    ternary main_v15 main_v16 main_v14 main_v17 (fun x i u => Host.scatterAdd scatter_S524288_S2097152x1_S2097152_n_0_0_1 x i u),
    nullary main_cst_3 (constant S_ .f32 0x3F800000#32),
    unary main_cst_3 main_v18 (broadcastInDim S524288 ![] bcast_S_S524288),
    binary main_v17 main_v18 main_v19 maximumf,
    unary main_v19 main_v20 (broadcastInDim S524288x1 ![0] bcast_S524288_S524288x1_0),
    unary main_v20 main_v21 (broadcastInDim S524288x64 ![0, 1] bcast_S524288x1_S524288x64_0_1),
    binary main_v13 main_v21 main_v22 Host.divf ]

/-- The dense layer with its rectifier: operations 30 to 38. -/
abbrev opsB : List (HloOp τ sig (Elt F)) :=
  [ binary main_v22 main_arg5 main_v23 (fun l r => Host.dotGeneral dot_S524288x64_S64x128_S524288x128_1_0_0_1_n_n none l r),
    binary main_arg0 main_arg6 main_v24 (fun l r => Host.dotGeneral dot_S524288x64_S64x128_S524288x128_1_0_0_1_n_n none l r),
    binary main_v23 main_v24 main_v25 addf,
    unary main_arg7 main_v26 (broadcastInDim S1x128 ![1] bcast_S128_S1x128_1),
    unary main_v26 main_v27 (broadcastInDim S524288x128 ![0, 1] bcast_S1x128_S524288x128_0_1),
    binary main_v25 main_v27 main_v28 addf,
    TRef.nullary main_call0.cst (constant S_ .f32 0x00000000#32),
    TRef.unary main_call0.cst main_call0.v0 (broadcastInDim S524288x128 ![] bcast_S_S524288x128),
    TRef.binary (TRef.of (T := ⟨S524288x128, .f32⟩) main_v28) main_call0.v0 main_call0.v1 maximumf ]

/-- The pooling: operations 39 to 42. -/
abbrev opsC : List (HloOp τ sig (Elt F)) :=
  [ nullary main_cst_4 (constant S_ .f32 0x00000000#32),
    unary main_cst_4 main_v30 (broadcastInDim S8192x128 ![] bcast_S_S8192x128),
    unary main_arg2 main_v31 (broadcastInDim S524288x1 ![0] bcast_S524288_S524288x1_0),
    ternary main_v30 main_v31 main_v29 main_v32 (fun x i u => Host.scatterAdd scatter_S8192x128_S524288x1_S524288x128_1_0_0_1 x i u) ]

/-- The head: operations 43 to 58. -/
abbrev opsD : List (HloOp τ sig (Elt F)) :=
  [ binary main_v32 main_arg8 main_v33 (fun l r => Host.dotGeneral dot_S8192x128_S128x128_S8192x128_1_0_0_1_n_n none l r),
    unary main_arg9 main_v34 (broadcastInDim S1x128 ![1] bcast_S128_S1x128_1),
    unary main_v34 main_v35 (broadcastInDim S8192x128 ![0, 1] bcast_S1x128_S8192x128_0_1),
    binary main_v33 main_v35 main_v36 addf,
    nullary main_cst_5 (constant S_ .f32 0x3C23D70A#32),
    TRef.nullary main_call1.cst (constant S_ .f32 0x00000000#32),
    TRef.unary main_call1.cst main_call1.v0 (broadcastInDim S8192x128 ![] bcast_S_S8192x128),
    TRef.binary (TRef.of (T := ⟨S8192x128, .f32⟩) main_v36) main_call1.v0 main_call1.v1 (cmpf .oge),
    TRef.unary (TRef.of (T := ⟨S_, .f32⟩) main_cst_5) main_call1.v2 id,
    TRef.unary main_call1.v2 main_call1.v3 (broadcastInDim S8192x128 ![] bcast_S_S8192x128),
    TRef.binary main_call1.v3 (TRef.of (T := ⟨S8192x128, .f32⟩) main_v36) main_call1.v4 mulf,
    TRef.ternary main_call1.v1 (TRef.of (T := ⟨S8192x128, .f32⟩) main_v36) main_call1.v4 main_call1.call0.v0 select,
    binary main_v37 main_arg10 main_v38 (fun l r => Host.dotGeneral dot_S8192x128_S128x1_S8192x1_1_0_0_1_n_n none l r),
    unary main_arg11 main_v39 (broadcastInDim S1x1 ![1] bcast_S1_S1x1_1),
    unary main_v39 main_v40 (broadcastInDim S8192x1 ![0, 1] bcast_S1x1_S8192x1_0_1),
    binary main_v38 main_v40 main_v41 addf ]

/-- The weighted mean: operations 59 to 68. -/
abbrev opsE : List (HloOp τ sig (Elt F)) :=
  [ binary main_v41 main_arg3 main_v42 mulf,
    nullary main_cst_6 (constant S_ .f32 0x00000000#32),
    unary main_cst_6 main_v43 (broadcastInDim S64x1 ![] bcast_S_S64x1),
    unary main_arg4 main_v44 (broadcastInDim S8192x1 ![0] bcast_S8192_S8192x1_0),
    ternary main_v43 main_v44 main_v42 main_v45 (fun x i u => Host.scatterAdd scatter_S64x1_S8192x1_S8192x1_1_0_0_1 x i u),
    nullary main_cst_7 (constant S_ .f32 0x00000000#32),
    unary main_cst_7 main_v46 (broadcastInDim S64x1 ![] bcast_S_S64x1),
    unary main_arg4 main_v47 (broadcastInDim S8192x1 ![0] bcast_S8192_S8192x1_0),
    ternary main_v46 main_v47 main_arg3 main_v48 (fun x i u => Host.scatterAdd scatter_S64x1_S8192x1_S8192x1_1_0_0_1 x i u),
    binary main_v45 main_v48 main_v49 Host.divf ]

/-- The whole line is the five windows in order. -/
theorem ops_split : (ops : List (HloOp τ sig (Elt F))) = opsA ++ (opsB ++ (opsC ++ (opsD ++ opsE))) := rfl

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Windows

/-! ## Each window as a stage of what it reads -/

set_option maxRecDepth 16384 in
theorem aggR_after (W : Valuation τ sig (Elt Ideal)) :
    after (opsA (F := Ideal)) W (Proc.devRef .tc main_v22)
      = Cert.Sage.meanNeighbours (W (Proc.devRef .tc main_arg0)) (W (Proc.devRef .tc main_arg1)) := by
  after_results_simp
  rfl

theorem denseR_after (W : Valuation τ sig (Elt Ideal)) :
    after (opsB (F := Ideal)) W (Proc.devRef .tc main_v29)
      = Cert.Sage.denseHost (W (Proc.devRef .tc main_v22)) (W (Proc.devRef .tc main_arg0)) (W (Proc.devRef .tc main_arg5))
          (W (Proc.devRef .tc main_arg6)) (W (Proc.devRef .tc main_arg7)) := by
  after_results_simp
  rfl

theorem poolR_after (W : Valuation τ sig (Elt Ideal)) :
    after (opsC (F := Ideal)) W (Proc.devRef .tc main_v32)
      = Cert.Sage.poolRows (W (Proc.devRef .tc main_v29)) (W (Proc.devRef .tc main_arg2)) := by
  after_results_simp
  rfl

theorem headR_after (W : Valuation τ sig (Elt Ideal)) :
    after (opsD (F := Ideal)) W (Proc.devRef .tc main_v41)
      = Cert.Sage.headHost (W (Proc.devRef .tc main_v32)) (W (Proc.devRef .tc main_arg8)) (W (Proc.devRef .tc main_arg9))
          (W (Proc.devRef .tc main_arg10)) (W (Proc.devRef .tc main_arg11)) := by
  after_results_simp
  rfl

theorem tailR_after (W : Valuation τ sig (Elt Ideal)) :
    after (opsE (F := Ideal)) W (Proc.devRef .tc main_v49)
      = Cert.Sage.weightedMean (W (Proc.devRef .tc main_v41)) (W (Proc.devRef .tc main_arg3)) (W (Proc.devRef .tc main_arg4)) := by
  after_results_simp
  rfl

/-! ## The arguments pass through the windows unwritten -/

theorem keepA0 (W : Valuation τ sig (Elt Ideal)) : after (opsA (F := Ideal)) W (Proc.devRef .tc main_arg0) = W (Proc.devRef .tc main_arg0) := by after_results_simp
theorem keepA2 (W : Valuation τ sig (Elt Ideal)) : after (opsA (F := Ideal)) W (Proc.devRef .tc main_arg2) = W (Proc.devRef .tc main_arg2) := by after_results_simp
theorem keepA3 (W : Valuation τ sig (Elt Ideal)) : after (opsA (F := Ideal)) W (Proc.devRef .tc main_arg3) = W (Proc.devRef .tc main_arg3) := by after_results_simp
theorem keepA4 (W : Valuation τ sig (Elt Ideal)) : after (opsA (F := Ideal)) W (Proc.devRef .tc main_arg4) = W (Proc.devRef .tc main_arg4) := by after_results_simp
theorem keepA5 (W : Valuation τ sig (Elt Ideal)) : after (opsA (F := Ideal)) W (Proc.devRef .tc main_arg5) = W (Proc.devRef .tc main_arg5) := by after_results_simp
theorem keepA6 (W : Valuation τ sig (Elt Ideal)) : after (opsA (F := Ideal)) W (Proc.devRef .tc main_arg6) = W (Proc.devRef .tc main_arg6) := by after_results_simp
theorem keepA7 (W : Valuation τ sig (Elt Ideal)) : after (opsA (F := Ideal)) W (Proc.devRef .tc main_arg7) = W (Proc.devRef .tc main_arg7) := by after_results_simp
theorem keepA8 (W : Valuation τ sig (Elt Ideal)) : after (opsA (F := Ideal)) W (Proc.devRef .tc main_arg8) = W (Proc.devRef .tc main_arg8) := by after_results_simp
theorem keepA9 (W : Valuation τ sig (Elt Ideal)) : after (opsA (F := Ideal)) W (Proc.devRef .tc main_arg9) = W (Proc.devRef .tc main_arg9) := by after_results_simp
theorem keepA10 (W : Valuation τ sig (Elt Ideal)) : after (opsA (F := Ideal)) W (Proc.devRef .tc main_arg10) = W (Proc.devRef .tc main_arg10) := by after_results_simp
theorem keepA11 (W : Valuation τ sig (Elt Ideal)) : after (opsA (F := Ideal)) W (Proc.devRef .tc main_arg11) = W (Proc.devRef .tc main_arg11) := by after_results_simp
theorem keepB2 (W : Valuation τ sig (Elt Ideal)) : after (opsB (F := Ideal)) W (Proc.devRef .tc main_arg2) = W (Proc.devRef .tc main_arg2) := by after_results_simp
theorem keepB3 (W : Valuation τ sig (Elt Ideal)) : after (opsB (F := Ideal)) W (Proc.devRef .tc main_arg3) = W (Proc.devRef .tc main_arg3) := by after_results_simp
theorem keepB4 (W : Valuation τ sig (Elt Ideal)) : after (opsB (F := Ideal)) W (Proc.devRef .tc main_arg4) = W (Proc.devRef .tc main_arg4) := by after_results_simp
theorem keepB8 (W : Valuation τ sig (Elt Ideal)) : after (opsB (F := Ideal)) W (Proc.devRef .tc main_arg8) = W (Proc.devRef .tc main_arg8) := by after_results_simp
theorem keepB9 (W : Valuation τ sig (Elt Ideal)) : after (opsB (F := Ideal)) W (Proc.devRef .tc main_arg9) = W (Proc.devRef .tc main_arg9) := by after_results_simp
theorem keepB10 (W : Valuation τ sig (Elt Ideal)) : after (opsB (F := Ideal)) W (Proc.devRef .tc main_arg10) = W (Proc.devRef .tc main_arg10) := by after_results_simp
theorem keepB11 (W : Valuation τ sig (Elt Ideal)) : after (opsB (F := Ideal)) W (Proc.devRef .tc main_arg11) = W (Proc.devRef .tc main_arg11) := by after_results_simp
theorem keepC3 (W : Valuation τ sig (Elt Ideal)) : after (opsC (F := Ideal)) W (Proc.devRef .tc main_arg3) = W (Proc.devRef .tc main_arg3) := by after_results_simp
theorem keepC4 (W : Valuation τ sig (Elt Ideal)) : after (opsC (F := Ideal)) W (Proc.devRef .tc main_arg4) = W (Proc.devRef .tc main_arg4) := by after_results_simp
theorem keepC8 (W : Valuation τ sig (Elt Ideal)) : after (opsC (F := Ideal)) W (Proc.devRef .tc main_arg8) = W (Proc.devRef .tc main_arg8) := by after_results_simp
theorem keepC9 (W : Valuation τ sig (Elt Ideal)) : after (opsC (F := Ideal)) W (Proc.devRef .tc main_arg9) = W (Proc.devRef .tc main_arg9) := by after_results_simp
theorem keepC10 (W : Valuation τ sig (Elt Ideal)) : after (opsC (F := Ideal)) W (Proc.devRef .tc main_arg10) = W (Proc.devRef .tc main_arg10) := by after_results_simp
theorem keepC11 (W : Valuation τ sig (Elt Ideal)) : after (opsC (F := Ideal)) W (Proc.devRef .tc main_arg11) = W (Proc.devRef .tc main_arg11) := by after_results_simp
theorem keepD3 (W : Valuation τ sig (Elt Ideal)) : after (opsD (F := Ideal)) W (Proc.devRef .tc main_arg3) = W (Proc.devRef .tc main_arg3) := by after_results_simp
theorem keepD4 (W : Valuation τ sig (Elt Ideal)) : after (opsD (F := Ideal)) W (Proc.devRef .tc main_arg4) = W (Proc.devRef .tc main_arg4) := by after_results_simp

/-- The reference's result as its stages composed. -/
def refResult (x : FVec Ideal S524288x64 .f32) (ei : IVec S2x2097152 32) (nb : IVec S524288 32) (w : FVec Ideal S8192x1 .f32)
    (sb : IVec S8192 32) (wl wr : FVec Ideal S64x128 .f32) (b : FVec Ideal S128 .f32) (w1 : FVec Ideal S128x128 .f32)
    (b1 : FVec Ideal S128 .f32) (w2 : FVec Ideal S128x1 .f32) (b2 : FVec Ideal S1 .f32) : FVec Ideal S64x1 .f32 :=
  Cert.Sage.weightedMean
    (Cert.Sage.headHost (Cert.Sage.poolRows (Cert.Sage.denseHost (Cert.Sage.meanNeighbours x ei) x wl wr b) nb) w1 b1 w2 b2) w sb

/-- The fold of the sixty-eight operations at the result buffer is the stages composed. -/
theorem out_eq (V : Valuation τ sig (Elt Ideal)) :
    after (ops (F := Ideal)) V (Proc.devRef .tc main_v49)
      = refResult (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_app, after_app, after_app, after_app]
  rw [tailR_after, headR_after, poolR_after, denseR_after, aggR_after]
  rw [keepD3, keepD4, keepC3, keepC4, keepC8, keepC9, keepC10, keepC11, keepB2, keepB3, keepB4, keepB8, keepB9, keepB10,
    keepB11, keepA0, keepA2, keepA3, keepA4, keepA5, keepA6, keepA7, keepA8, keepA9, keepA10, keepA11]
  rfl

set_option maxRecDepth 16384 in
set_option maxHeartbeats 4000000 in
theorem arg0_eq (V : Valuation τ sig (Elt Ideal)) :
    after (ops (F := Ideal)) V (Proc.devRef .tc main_arg0) = V (Proc.devRef .tc main_arg0) := by
  after_results_simp

set_option maxRecDepth 16384 in
set_option maxHeartbeats 4000000 in
theorem arg1_eq (V : Valuation τ sig (Elt Ideal)) :
    after (ops (F := Ideal)) V (Proc.devRef .tc main_arg1) = V (Proc.devRef .tc main_arg1) := by
  after_results_simp

set_option maxRecDepth 16384 in
set_option maxHeartbeats 4000000 in
theorem arg2_eq (V : Valuation τ sig (Elt Ideal)) :
    after (ops (F := Ideal)) V (Proc.devRef .tc main_arg2) = V (Proc.devRef .tc main_arg2) := by
  after_results_simp

set_option maxRecDepth 16384 in
set_option maxHeartbeats 4000000 in
theorem arg3_eq (V : Valuation τ sig (Elt Ideal)) :
    after (ops (F := Ideal)) V (Proc.devRef .tc main_arg3) = V (Proc.devRef .tc main_arg3) := by
  after_results_simp

set_option maxRecDepth 16384 in
set_option maxHeartbeats 4000000 in
theorem arg4_eq (V : Valuation τ sig (Elt Ideal)) :
    after (ops (F := Ideal)) V (Proc.devRef .tc main_arg4) = V (Proc.devRef .tc main_arg4) := by
  after_results_simp

set_option maxRecDepth 16384 in
set_option maxHeartbeats 4000000 in
theorem arg5_eq (V : Valuation τ sig (Elt Ideal)) :
    after (ops (F := Ideal)) V (Proc.devRef .tc main_arg5) = V (Proc.devRef .tc main_arg5) := by
  after_results_simp

set_option maxRecDepth 16384 in
set_option maxHeartbeats 4000000 in
theorem arg6_eq (V : Valuation τ sig (Elt Ideal)) :
    after (ops (F := Ideal)) V (Proc.devRef .tc main_arg6) = V (Proc.devRef .tc main_arg6) := by
  after_results_simp

set_option maxRecDepth 16384 in
set_option maxHeartbeats 4000000 in
theorem arg7_eq (V : Valuation τ sig (Elt Ideal)) :
    after (ops (F := Ideal)) V (Proc.devRef .tc main_arg7) = V (Proc.devRef .tc main_arg7) := by
  after_results_simp

set_option maxRecDepth 16384 in
set_option maxHeartbeats 4000000 in
theorem arg8_eq (V : Valuation τ sig (Elt Ideal)) :
    after (ops (F := Ideal)) V (Proc.devRef .tc main_arg8) = V (Proc.devRef .tc main_arg8) := by
  after_results_simp

set_option maxRecDepth 16384 in
set_option maxHeartbeats 4000000 in
theorem arg9_eq (V : Valuation τ sig (Elt Ideal)) :
    after (ops (F := Ideal)) V (Proc.devRef .tc main_arg9) = V (Proc.devRef .tc main_arg9) := by
  after_results_simp

set_option maxRecDepth 16384 in
set_option maxHeartbeats 4000000 in
theorem arg10_eq (V : Valuation τ sig (Elt Ideal)) :
    after (ops (F := Ideal)) V (Proc.devRef .tc main_arg10) = V (Proc.devRef .tc main_arg10) := by
  after_results_simp

set_option maxRecDepth 16384 in
set_option maxHeartbeats 4000000 in
theorem arg11_eq (V : Valuation τ sig (Elt Ideal)) :
    after (ops (F := Ideal)) V (Proc.devRef .tc main_arg11) = V (Proc.devRef .tc main_arg11) := by
  after_results_simp

/-- The run, read: the result at the stages of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
        = refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v49).trans (out_eq _),
       (h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _),
       (h c main_arg9).trans (arg9_eq _),
       (h c main_arg10).trans (arg10_eq _),
       (h c main_arg11).trans (arg11_eq _)⟩)
    (run_main m ρ)

end Cert.ReferenceIdeal.Hand

end
-- ==== Proof.lean ====
/- The proof of `Cert.Claim` (proofs.«113190_j72541997629472_1_alg».proof.Defs).

   Both programs score graphs. Node features are averaged over in-neighbours (rows gathered at the edges' sources, summed into
   the targets, divided by max(in-degree, 1)); a dense layer with a rectifier, max(agg · W_l + x · W_r + b, 0), gives node rows;
   the rows are summed into subgraphs; a two-layer head with a leaky rectifier scores each subgraph; the scores, weighted, are
   summed into graphs and divided by the graphs' summed weights.

   The kernel computes the dense layer on the matrix unit in 128 blocks of 4096 rows and the head in one block, on operands
   narrowed to a shorter float format; the reference computes both with whole host products. On the extended reals a change of
   format is the identity and a matrix product is the sum over the contracted axis whatever its blocking, so each block of the
   kernel's dense output is the corresponding rows of one whole-array function (Proof/DenseBlocks.lean), and likewise the head
   (Proof/HeadBlocks.lean). The kernel's leaky rectifier selects on t > 0 and the reference's on t ≥ 0: they differ only at
   t = 0, where slope · 0 = 0 = t (Proof/Leaky.lean). Everything else — the gather and the three segment sums, the two
   quotients — is the same host operations on both sides, carried as three functions that are never opened
   (Proof/Stages.lean). No law used needs the inputs finite.

   The kernel's run is the generated frame's segments with the result buffer read at the last boundary (Proof/KernelRun.lean)
   and unwound through the two regions and three host stretches (Proof/KernelValue.lean); the reference's run is its
   operations listed in order, the called functions' bodies in their calls' places (Proof/RefRun.lean), read in five windows
   (Proof/RefValue.lean). The ideal pass rewrote nothing, so `preserves` is trivial. -/
import proofs.«113190_j72541997629472_1_alg».proof.Defs
import proofs.«113190_j72541997629472_1_alg».proof.Proof.Gen.Kernel
import proofs.«113190_j72541997629472_1_alg».proof.Proof.Gen.Kernel.Skeleton
import proofs.«113190_j72541997629472_1_alg».proof.Proof.Gen.Kernel.Launch
import proofs.«113190_j72541997629472_1_alg».proof.Proof.Gen.Kernel.Points
import proofs.«113190_j72541997629472_1_alg».proof.Proof.Gen.Kernel.Frame
import proofs.«113190_j72541997629472_1_alg».proof.Proof.Gen.KernelIdeal
import proofs.«113190_j72541997629472_1_alg».proof.Proof.Gen.KernelIdeal.Skeleton
import proofs.«113190_j72541997629472_1_alg».proof.Proof.Gen.KernelIdeal.Launch
import proofs.«113190_j72541997629472_1_alg».proof.Proof.Gen.KernelIdeal.Points
import proofs.«113190_j72541997629472_1_alg».proof.Proof.Gen.KernelIdeal.Frame
import proofs.«113190_j72541997629472_1_alg».proof.Proof.Gen.ReferenceIdeal
import proofs.«113190_j72541997629472_1_alg».proof.Proof.Gen.Pre_finite_inputs
import proofs.«113190_j72541997629472_1_alg».proof.Proof.KernelValue
import proofs.«113190_j72541997629472_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

open Cert.ReferenceIdeal in
/-- The reference's stages composed are the kernel's: the dense layer and the head, as the host spells them, are the
    index-by-index functions the kernel's blocks fill; the other three stages are the same functions. -/
theorem result_eq (x : FVec Ideal S524288x64 .f32) (ei : IVec S2x2097152 32) (nb : IVec S524288 32) (w : FVec Ideal S8192x1 .f32)
    (sb : IVec S8192 32) (wl wr : FVec Ideal S64x128 .f32) (b : FVec Ideal S128 .f32) (w1 : FVec Ideal S128x128 .f32)
    (b1 : FVec Ideal S128 .f32) (w2 : FVec Ideal S128x1 .f32) (b2 : FVec Ideal S1 .f32) :
    Cert.ReferenceIdeal.Hand.refResult x ei nb w sb wl wr b w1 b1 w2 b2 = Cert.Sage.result x ei nb w sb wl wr b w1 b1 w2 b2 := by
  unfold Cert.ReferenceIdeal.Hand.refResult Cert.Sage.result
  rw [Cert.Sage.denseHost_eq, Cert.Sage.headHost_eq]

/-- From memories agreeing on the arguments both programs end with the result buffer at `result` of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8, a9, a10, a11⟩ := hagree c
  rw [a0, a1, a2, a3, a4, a5, a6, a7, a8, a9, a10, a11]
  exact result_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
